-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x3 : Shape := ⟨3, ![64, 2048, 3]⟩
abbrev S64x128 : Shape := ⟨2, ![64, 128]⟩
abbrev S4x32 : Shape := ⟨2, ![4, 32]⟩
abbrev S2x512 : Shape := ⟨2, ![2, 512]⟩
abbrev S512 : Shape := ⟨1, ![512]⟩
abbrev S_ : Shape := ⟨0, ![]⟩

class Facts : Prop where
  bcast_S_S64x2048x3 : S_.BroadcastsInDim S64x2048x3 (![] : Fin 0 → Fin S64x2048x3.rank)
  reducesTo_S64x2048x3_S_d0_1_2 : S64x2048x3.ReducesTo [0, 1, 2] S_
  h_S_ : 0 < S_.numel
  bcast_S_S64x128 : S_.BroadcastsInDim S64x128 (![] : Fin 0 → Fin S64x128.rank)
  reducesTo_S64x128_S_d0_1 : S64x128.ReducesTo [0, 1] S_
  bcast_S_S4x32 : S_.BroadcastsInDim S4x32 (![] : Fin 0 → Fin S4x32.rank)
  reducesTo_S4x32_S_d0_1 : S4x32.ReducesTo [0, 1] S_
  bcast_S_S2x512 : S_.BroadcastsInDim S2x512 (![] : Fin 0 → Fin S2x512.rank)
  reducesTo_S2x512_S_d0_1 : S2x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S2x512 .f32) (main_arg5 : FVec F S512 .f32) (main_v13 : IVec S_ 1) (main_v16 : IVec S2x512 1) : IVec S_ 1 :=
  let main_c_5 : IVec S_ 1 := constantI S_ 1 1#1
  let main_v17 : IVec S_ 1 := (fun x v => Host.reduce IntOp.andi x v reducesTo_S2x512_S_d0_1 h_S_) main_v16 main_c_5
  let main_v18 : IVec S_ 1 := andi main_v13 main_v17
  let main_v19 : FVec F S2x512 .f32 := Host.absf main_arg4
  let main_cst_6 : FVec F S_ .f32 := constant S_ .f32 0x7F800000#32
  let main_v20 : FVec F S2x512 .f32 := broadcastInDim S2x512 ![] bcast_S_S2x512 main_cst_6
  let main_v21 : IVec S2x512 1 := cmpf .olt main_v19 main_v20
  let main_c_7 : IVec S_ 1 := constantI S_ 1 1#1
  let main_v22 : IVec S_ 1 := (fun x v => Host.reduce IntOp.andi x v reducesTo_S2x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  main_v28

def fn {F : FTy → Type} [FloatOps F] (main_arg0 : FVec F S64x2048x3 .f32) (main_arg1 : FVec F S64x128 .f32) (main_arg2 : FVec F S4x32 .f32) (main_arg3 : FVec F S2x512 .f32) (main_arg4 : FVec F S2x512 .f32) (main_arg5 : FVec F S512 .f32) : IVec S_ 1 :=
  let main_v0 : FVec F S64x2048x3 .f32 := Host.absf main_arg0
  let main_cst : FVec F S_ .f32 := constant S_ .f32 0x7F800000#32
  let main_v1 : FVec F S64x2048x3 .f32 := broadcastInDim S64x2048x3 ![] bcast_S_S64x2048x3 main_cst
  let main_v2 : IVec S64x2048x3 1 := cmpf .olt main_v0 main_v1
  let main_c : IVec S_ 1 := constantI S_ 1 1#1
  let main_v3 : IVec S_ 1 := (fun x v => Host.reduce IntOp.andi x v reducesTo_S64x2048x3_S_d0_1_2 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S4x32 .f32 := Host.absf main_arg2
  let main_cst_2 : FVec F S_ .f32 := constant S_ .f32 0x7F800000#32
  let main_v10 : FVec F S4x32 .f32 := broadcastInDim S4x32 ![] bcast_S_S4x32 main_cst_2
  let main_v11 : IVec S4x32 1 := cmpf .olt main_v9 main_v10
  let main_c_3 : IVec S_ 1 := constantI S_ 1 1#1
  let main_v12 : IVec S_ 1 := (fun x v => Host.reduce IntOp.andi x v reducesTo_S4x32_S_d0_1 h_S_) main_v11 main_c_3
  let main_v13 : IVec S_ 1 := andi main_v8 main_v12
  let main_v14 : FVec F S2x512 .f32 := Host.absf main_arg3
  let main_cst_4 : FVec F S_ .f32 := constant S_ .f32 0x7F800000#32
  let main_v15 : FVec F S2x512 .f32 := broadcastInDim S2x512 ![] bcast_S_S2x512 main_cst_4
  let main_v16 : IVec S2x512 1 := cmpf .olt main_v14 main_v15
  fn_part1 (F := F) main_arg4 main_arg5 main_v13 main_v16
-- ==== Kernel.lean ====
abbrev S64x2048x3 : Shape := ⟨3, ![64, 2048, 3]⟩
abbrev S64x128 : Shape := ⟨2, ![64, 128]⟩
abbrev S4x32 : Shape := ⟨2, ![4, 32]⟩
abbrev S2x512 : Shape := ⟨2, ![2, 512]⟩
abbrev S512 : Shape := ⟨1, ![512]⟩
abbrev S3x64x2048 : Shape := ⟨3, ![3, 64, 2048]⟩
abbrev S1x512 : Shape := ⟨2, ![1, 512]⟩
abbrev S64x512 : Shape := ⟨2, ![64, 512]⟩
abbrev S3x8x512 : Shape := ⟨3, ![3, 8, 512]⟩
abbrev S8x512 : Shape := ⟨2, ![8, 512]⟩
abbrev S1x8x512 : Shape := ⟨3, ![1, 8, 512]⟩
abbrev S1x32 : Shape := ⟨2, ![1, 32]⟩
abbrev S32 : Shape := ⟨1, ![32]⟩
abbrev S1x1x32 : Shape := ⟨3, ![1, 1, 32]⟩
abbrev S8x512x1 : Shape := ⟨3, ![8, 512, 1]⟩
abbrev S8x512x32 : Shape := ⟨3, ![8, 512, 32]⟩
abbrev S1x1x512 : Shape := ⟨3, ![1, 1, 512]⟩
abbrev S8x512x512 : Shape := ⟨3, ![8, 512, 512]⟩
abbrev S64x640 : Shape := ⟨2, ![64, 640]⟩

abbrev nBuf : Space → Nat
  | .hbm => 10
  | .vmem => 9
  | .smem => 0
  | _ => 0

abbrev bufTy : (tb : Table) → Fin (tcTables nBuf tb) → BufTy
  | .hbm, ⟨0, _⟩ => ⟨S64x2048x3, .f32⟩
  | .hbm, ⟨1, _⟩ => ⟨S64x128, .f32⟩
  | .hbm, ⟨2, _⟩ => ⟨S4x32, .f32⟩
  | .hbm, ⟨3, _⟩ => ⟨S2x512, .f32⟩
  | .hbm, ⟨4, _⟩ => ⟨S2x512, .f32⟩
  | .hbm, ⟨5, _⟩ => ⟨S512, .f32⟩
  | .hbm, ⟨6, _⟩ => ⟨S3x64x2048, .f32⟩
  | .hbm, ⟨7, _⟩ => ⟨S1x512, .f32⟩
  | .hbm, ⟨8, _⟩ => ⟨S64x512, .f32⟩
  | .hbm, ⟨9, _⟩ => ⟨S64x640, .f32⟩
  | .local _ .vmem, ⟨0, _⟩ => ⟨S3x8x512, .f32⟩
  | .local _ .vmem, ⟨1, _⟩ => ⟨S3x8x512, .f32⟩
  | .local _ .vmem, ⟨2, _⟩ => ⟨S4x32, .f32⟩
  | .local _ .vmem, ⟨3, _⟩ => ⟨S2x512, .f32⟩
  | .local _ .vmem, ⟨4, _⟩ => ⟨S2x512, .f32⟩
  | .local _ .vmem, ⟨5, _⟩ => ⟨S1x512, .f32⟩
  | .local _ .vmem, ⟨6, _⟩ => ⟨S8x512, .f32⟩
  | .local _ .vmem, ⟨7, _⟩ => ⟨S8x512, .f32⟩
  | .local _ .vmem, ⟨8, _⟩ => ⟨S8x512, .f32⟩
  | _, _ => ⟨S64x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v98 : BitVec 1 := Scalar.cmpi .eq arg1 c3_i32
  let v99 : BitVec 32 := Scalar.extui v98
  let c0_i32_19 : BitVec 32 := 0#32
  let v100 : BitVec 1 := Scalar.cmpi .ne v99 c0_i32_19
  v100

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S3x8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  transposes_S64x2048x3_S3x64x2048_2_0_1 : S64x2048x3.Transposes [2, 0, 1] S3x64x2048
  shapeCasts_S512_S1x512 : S512.ShapeCasts S1x512
  inb_S8x512_S8x512_0_0 : ∀ a, (![0, 0] : Fin 2 → Nat) a + S8x512.size a ≤ S8x512.size a
  h_S8x512 : 0 < S8x512.numel
  shapeCasts_S8x512_S8x512 : S8x512.ShapeCasts S8x512
  inb_S3x8x512_S3x8x512_0_0_0 : ∀ a, (![0, 0, 0] : Fin 3 → Nat) a + S3x8x512.size a ≤ S3x8x512.size a
  h_S3x8x512 : 0 < S3x8x512.numel
  shapeCasts_S3x8x512_S3x8x512 : S3x8x512.ShapeCasts S3x8x512
  slices_S3x8x512_o0_0_0_S1x8x512 : S3x8x512.Slices ![0, 0, 0] S1x8x512
  shapeCasts_S1x8x512_S8x512 : S1x8x512.ShapeCasts S8x512
  slices_S3x8x512_o1_0_0_S1x8x512 : S3x8x512.Slices ![1, 0, 0] S1x8x512
  slices_S3x8x512_o2_0_0_S1x8x512 : S3x8x512.Slices ![2, 0, 0] S1x8x512
  inb_S4x32_S4x32_0_0 : ∀ a, (![0, 0] : Fin 2 → Nat) a + S4x32.size a ≤ S4x32.size a
  h_S4x32 : 0 < S4x32.numel
  slices_S4x32_o0_0_S1x32 : S4x32.Slices ![0, 0] S1x32
  shapeCasts_S1x32_S32 : S1x32.ShapeCasts S32
  shapeCasts_S32_S1x1x32 : S32.ShapeCasts S1x1x32
  slices_S4x32_o1_0_S1x32 : S4x32.Slices ![1, 0] S1x32
  slices_S4x32_o2_0_S1x32 : S4x32.Slices ![2, 0] S1x32
  slices_S4x32_o3_0_S1x32 : S4x32.Slices ![3, 0] S1x32
  shapeCasts_S8x512_S8x512x1 : S8x512.ShapeCasts S8x512x1
  broadcasts_S8x512x1_S8x512x32 : S8x512x1.Broadcasts S8x512x32
  broadcasts_S1x1x32_S8x512x32 : S1x1x32.Broadcasts S8x512x32
  reduces_S8x512x32_S8x512 : S8x512x32.Reduces [2] S8x512
  inb_S2x512_S2x512_0_0 : ∀ a, (![0, 0] : Fin 2 → Nat) a + S2x512.size a ≤ S2x512.size a
  h_S2x512 : 0 < S2x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  slices_S2x512_o0_0_S1x512 : S2x512.Slices ![0, 0] S1x512
  shapeCasts_S1x512_S512 : S1x512.ShapeCasts S512
  shapeCasts_S512_S1x1x512 : S512.ShapeCasts S1x1x512
  slices_S2x512_o1_0_S1x512 : S2x512.Slices ![1, 0] S1x512
  broadcasts_S8x512x1_S8x512x512 : S8x512x1.Broadcasts S8x512x512
  broadcasts_S1x1x512_S8x512x512 : S1x1x512.Broadcasts S8x512x512
  reduces_S8x512x512_S8x512 : S8x512x512.Reduces [1] S8x512
  concatenates_S64x512_S64x128_S64x640_d1 : Shape.Concatenates [S64x512, S64x128] S64x640 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x8x512.size a ≤ S3x64x2048.size a
  hwx0_0 : ∀ i : grid0.Coords, EltTy.bits .f32 = 32 ∨ (Rect.block (s := S3x64x2048) S3x8x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x32.size a ≤ S4x32.size a
  hwx0_1 : ∀ i : grid0.Coords, EltTy.bits .f32 = 32 ∨ (Rect.block (s := S4x32) S4x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x512.size a ≤ S2x512.size a
  hwx0_2 : ∀ i : grid0.Coords, EltTy.bits .f32 = 32 ∨ (Rect.block (s := S2x512) S2x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x512.size a ≤ S2x512.size a
  hwx0_3 : ∀ i : grid0.Coords, EltTy.bits .f32 = 32 ∨ (Rect.block (s := S2x512) S2x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x512.size a ≤ S64x512.size a
  hwx0_5 : ∀ i : grid0.Coords, EltTy.bits .f32 = 32 ∨ (Rect.block (s := S64x512) S8x512.size (cc0_transform_5 i) (hinb0_5 i)).WholeWords (EltTy.packing .f32)

variable [Facts₀]

abbrev win0_0 : Pipeline.Window sig grid0 :=
  Pipeline.Window.ofSpec (Memref.whole main_v0) S3x8x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S2x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S2x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S8x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S64x2048x3 : Shape := ⟨3, ![64, 2048, 3]⟩
abbrev S64x128 : Shape := ⟨2, ![64, 128]⟩
abbrev S4x32 : Shape := ⟨2, ![4, 32]⟩
abbrev S2x512 : Shape := ⟨2, ![2, 512]⟩
abbrev S512 : Shape := ⟨1, ![512]⟩
abbrev S64x2048x2 : Shape := ⟨3, ![64, 2048, 2]⟩
abbrev S64x2048x1 : Shape := ⟨3, ![64, 2048, 1]⟩
abbrev S64x2048 : Shape := ⟨2, ![64, 2048]⟩
abbrev S64x2048x2x1 : Shape := ⟨4, ![64, 2048, 2, 1]⟩
abbrev S2x32 : Shape := ⟨2, ![2, 32]⟩
abbrev S1x1x2x32 : Shape := ⟨4, ![1, 1, 2, 32]⟩
abbrev S64x2048x2x32 : Shape := ⟨4, ![64, 2048, 2, 32]⟩
abbrev S_ : Shape := ⟨0, ![]⟩
abbrev S64x2048x32 : Shape := ⟨3, ![64, 2048, 32]⟩
abbrev S1x1x2x512 : Shape := ⟨4, ![1, 1, 2, 512]⟩
abbrev S64x2048x2x512 : Shape := ⟨4, ![64, 2048, 2, 512]⟩
abbrev S64x2048x512 : Shape := ⟨3, ![64, 2048, 512]⟩
abbrev S1x1x512 : Shape := ⟨3, ![1, 1, 512]⟩
abbrev S64x512 : Shape := ⟨2, ![64, 512]⟩
abbrev S64x640 : Shape := ⟨2, ![64, 640]⟩

abbrev nBuf : Space → Nat
  | .hbm => 54
  | .vmem => 0
  | .smem => 0
  | _ => 0

abbrev bufTy : (tb : Table) → Fin (tcTables nBuf tb) → BufTy
  | .hbm, ⟨0, _⟩ => ⟨S64x2048x3, .f32⟩
  | .hbm, ⟨1, _⟩ => ⟨S64x128, .f32⟩
  | .hbm, ⟨2, _⟩ => ⟨S4x32, .f32⟩
  | .hbm, ⟨3, _⟩ => ⟨S2x512, .f32⟩
  | .hbm, ⟨4, _⟩ => ⟨S2x512, .f32⟩
  | .hbm, ⟨5, _⟩ => ⟨S512, .f32⟩
  | .hbm, ⟨6, _⟩ => ⟨S64x2048x2, .f32⟩
  | .hbm, ⟨7, _⟩ => ⟨S64x2048x1, .f32⟩
  | .hbm, ⟨8, _⟩ => ⟨S64x2048, .f32⟩
  | .hbm, ⟨9, _⟩ => ⟨S64x2048x2x1, .f32⟩
  | .hbm, ⟨10, _⟩ => ⟨S2x32, .f32⟩
  | .hbm, ⟨11, _⟩ => ⟨S1x1x2x32, .f32⟩
  | .hbm, ⟨12, _⟩ => ⟨S2x32, .f32⟩
  | .hbm, ⟨13, _⟩ => ⟨S1x1x2x32, .f32⟩
  | .hbm, ⟨14, _⟩ => ⟨S64x2048x2x32, .f32⟩
  | .hbm, ⟨15, _⟩ => ⟨S64x2048x2x32, .f32⟩
  | .hbm, ⟨16, _⟩ => ⟨S64x2048x2x32, .f32⟩
  | .hbm, ⟨17, _⟩ => ⟨S64x2048x2x32, .f32⟩
  | .hbm, ⟨18, _⟩ => ⟨S1x1x2x32, .f32⟩
  | .hbm, ⟨19, _⟩ => ⟨S64x2048x2x32, .f32⟩
  | .hbm, ⟨20, _⟩ => ⟨S64x2048x2x32, .f32⟩
  | .hbm, ⟨21, _⟩ => ⟨S_, .f32⟩
  | .hbm, ⟨22, _⟩ => ⟨S64x2048x32, .f32⟩
  | .hbm, ⟨23, _⟩ => ⟨S64x2048x32, .f32⟩
  | .hbm, ⟨24, _⟩ => ⟨S64x2048x32, .f32⟩
  | .hbm, ⟨25, _⟩ => ⟨S_, .f32⟩
  | .hbm, ⟨26, _⟩ => ⟨S64x2048, .f32⟩
  | .hbm, ⟨27, _⟩ => ⟨S1x1x2x512, .f32⟩
  | .hbm, ⟨28, _⟩ => ⟨S64x2048x2x512, .f32⟩
  | .hbm, ⟨29, _⟩ => ⟨S64x2048x2x512, .f32⟩
  | .hbm, ⟨30, _⟩ => ⟨S64x2048x2x512, .f32⟩
  | .hbm, ⟨31, _⟩ => ⟨S64x2048x2x512, .f32⟩
  | .hbm, ⟨32, _⟩ => ⟨S1x1x2x512, .f32⟩
  | .hbm, ⟨33, _⟩ => ⟨S1x1x2x512, .f32⟩
  | .hbm, ⟨34, _⟩ => ⟨S64x2048x2x512, .f32⟩
  | .hbm, ⟨35, _⟩ => ⟨S64x2048x2x512, .f32⟩
  | .hbm, ⟨36, _⟩ => ⟨S_, .f32⟩
  | .hbm, ⟨37, _⟩ => ⟨S64x2048x512, .f32⟩
  | .hbm, ⟨38, _⟩ => ⟨S_, .f32⟩
  | .hbm, ⟨39, _⟩ => ⟨S64x2048x512, .f32⟩
  | .hbm, ⟨40, _⟩ => ⟨S64x2048x512, .f32⟩
  | .hbm, ⟨41, _⟩ => ⟨S1x1x512, .f32⟩
  | .hbm, ⟨42, _⟩ => ⟨S64x2048x512, .f32⟩
  | .hbm, ⟨43, _⟩ => ⟨S64x2048x512, .f32⟩
  | .hbm, ⟨44, _⟩ => ⟨S_, .f32⟩
  | .hbm, ⟨45, _⟩ => ⟨S64x2048x512, .f32⟩
  | .hbm, ⟨46, _⟩ => ⟨S64x2048x512, .f32⟩
  | .hbm, ⟨47, _⟩ => ⟨S64x2048, .f32⟩
  | .hbm, ⟨48, _⟩ => ⟨S64x2048x1, .f32⟩
  | .hbm, ⟨49, _⟩ => ⟨S64x2048x512, .f32⟩
  | .hbm, ⟨50, _⟩ => ⟨S64x2048x512, .f32⟩
  | .hbm, ⟨51, _⟩ => ⟨S_, .f32⟩
  | .hbm, ⟨52, _⟩ => ⟨S64x512, .f32⟩
  | .hbm, ⟨53, _⟩ => ⟨S64x640, .f32⟩
  | _, _ => ⟨S64x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_0 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_1 : Ref sig .tc := ⟨.hbm, 36, rfl⟩
abbrev main_v28 : Ref sig .tc := ⟨.hbm, 37, rfl⟩
abbrev main_cst_2 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_3 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_4 : Ref sig .tc := ⟨.hbm, 51, rfl⟩
abbrev main_v40 : Ref sig .tc := ⟨.hbm, 52, rfl⟩
abbrev main_v41 : Ref sig .tc := ⟨.hbm, 53, rfl⟩

abbrev nD : Nat := 1
abbrev τ : Topo := Topo.v7x

variable {F : FTy → Type} [FloatOps F]

class Facts₀ : Prop where
  slices_S64x2048x3_S64x2048x2_0_0_0 : S64x2048x3.Slices ![0, 0, 0] S64x2048x2
  slices_S64x2048x3_S64x2048x1_0_0_2 : S64x2048x3.Slices ![0, 0, 2] S64x2048x1
  shapeCasts_S64x2048x1_S64x2048 : S64x2048x1.ShapeCasts S64x2048
  bcast_S64x2048x2_S64x2048x2x1_0_1_2 : S64x2048x2.BroadcastsInDim S64x2048x2x1 (![0, 1, 2] : Fin 3 → Fin S64x2048x2x1.rank)
  slices_S4x32_S2x32_0_0 : S4x32.Slices ![0, 0] S2x32
  bcast_S2x32_S1x1x2x32_2_3 : S2x32.BroadcastsInDim S1x1x2x32 (![2, 3] : Fin 2 → Fin S1x1x2x32.rank)
  slices_S4x32_S2x32_2_0 : S4x32.Slices ![2, 0] S2x32
  bcast_S64x2048x2x1_S64x2048x2x32_0_1_2_3 : S64x2048x2x1.BroadcastsInDim S64x2048x2x32 (![0, 1, 2, 3] : Fin 4 → Fin S64x2048x2x32.rank)
  bcast_S1x1x2x32_S64x2048x2x32_0_1_2_3 : S1x1x2x32.BroadcastsInDim S64x2048x2x32 (![0, 1, 2, 3] : Fin 4 → Fin S64x2048x2x32.rank)
  reducesTo_S64x2048x2x32_S64x2048x32_d2 : S64x2048x2x32.ReducesTo [2] S64x2048x32
  h_S_ : 0 < S_.numel
  reducesTo_S64x2048x32_S64x2048_d2 : S64x2048x32.ReducesTo [2] S64x2048
  bcast_S2x512_S1x1x2x512_2_3 : S2x512.BroadcastsInDim S1x1x2x512 (![2, 3] : Fin 2 → Fin S1x1x2x512.rank)
  bcast_S64x2048x2x1_S64x2048x2x512_0_1_2_3 : S64x2048x2x1.BroadcastsInDim S64x2048x2x512 (![0, 1, 2, 3] : Fin 4 → Fin S64x2048x2x512.rank)
  bcast_S1x1x2x512_S64x2048x2x512_0_1_2_3 : S1x1x2x512.BroadcastsInDim S64x2048x2x512 (![0, 1, 2, 3] : Fin 4 → Fin S64x2048x2x512.rank)
  reducesTo_S64x2048x2x512_S64x2048x512_d2 : S64x2048x2x512.ReducesTo [2] S64x2048x512
  bcast_S_S64x2048x512 : S_.BroadcastsInDim S64x2048x512 (![] : Fin 0 → Fin S64x2048x512.rank)
  bcast_S512_S1x1x512_2 : S512.BroadcastsInDim S1x1x512 (![2] : Fin 1 → Fin S1x1x512.rank)
  bcast_S1x1x512_S64x2048x512_0_1_2 : S1x1x512.BroadcastsInDim S64x2048x512 (![0, 1, 2] : Fin 3 → Fin S64x2048x512.rank)
  bcast_S64x2048_S64x2048x1_0_1 : S64x2048.BroadcastsInDim S64x2048x1 (![0, 1] : Fin 2 → Fin S64x2048x1.rank)
  bcast_S64x2048x1_S64x2048x512_0_1_2 : S64x2048x1.BroadcastsInDim S64x2048x512 (![0, 1, 2] : Fin 3 → Fin S64x2048x512.rank)
  reducesTo_S64x2048x512_S64x512_d1 : S64x2048x512.ReducesTo [1] S64x512
  concatenates_S64x512_S64x128_S64x640_d1 : Shape.Concatenates [S64x512, S64x128] S64x640 1

variable [Facts₀]

class Facts : Prop extends Facts₀ where

variable [Facts]
-- ==== Proof.Pieces.lean ====
/-
  What one run of the body leaves behind, as values. Whatever the grid point, the body adds to the scratch block the sums
  of the point block's contributions (one step); at the first point of a row of the grid the scratch is first reset to
  zero, and at the last point of a row the output block receives the scratch as just updated.
-/
import proofs.«180805_j7481833030230_2_alg».proof.Proof.Gen.KernelIdeal.Frame
import Idealize.ShloMosaic.Lib.Pipeline.Value
import Idealize.ShloMosaic.Lib.Tactic

noncomputable section

namespace Cert.KernelIdeal.Acc

open Idealize.ShloMosaic Idealize.ShloMosaic.TcCoe Idealize.ShloMosaic.Tactic Idealize.SL.Sem Cert.KernelIdeal Cert.KernelIdeal.Gen

variable {F : FTy → Type} [FloatOps F]

theorem hz : (![0, 0] : Fin 2 → Nat) = fun _ => 0 := funext fun a => by fin_cases a <;> rfl

/-- One step of the accumulation: the scratch block after the body, from the point's input blocks and the scratch before. -/
def step (x0 : Vec F S3x8x512 .f32) (x1 : Vec F S4x32 .f32) (x2 : Vec F S2x512 .f32) (x3 : Vec F S2x512 .f32) (x4 : Vec F S1x512 .f32) (acc : Vec F S8x512 .f32) : Vec F S8x512 .f32 :=
  k0_pay1 (k0_pay8 (k0_pay4 x0) (k0_pay5 x0) (k0_pay6 x0) (k0_pay7 x0 x1) x2 x3 x4 acc)

theorem hz3 : (![0, 0, 0] : Fin 3 → Nat) = fun _ => 0 := funext fun a => by fin_cases a <;> rfl

/-- At a point that is neither first nor last in its row of the grid the scratch ends one step on from what it held. -/
theorem sout_B (c : Dev nD) (i : grid0.Coords) (arg2 : Memref sig .tc .vmem S3x8x512 .f32) (harg2 : arg2.IsWhole) (arg3 : Memref sig .tc .vmem S4x32 .f32) (harg3 : arg3.IsWhole) (arg4 : Memref sig .tc .vmem S2x512 .f32) (harg4 : arg4.IsWhole) (arg5 : Memref sig .tc .vmem S2x512 .f32) (harg5 : arg5.IsWhole) (arg6 : Memref sig .tc .vmem S1x512 .f32) (harg6 : arg6.IsWhole) (arg7 : Memref sig .tc .vmem S8x512 .f32) (harg7 : arg7.IsWhole) (arg8 : Memref sig .tc .vmem S8x512 .f32) (harg8 : arg8.IsWhole) (hc0 : ¬cond0_0 i) (hc1 : ¬cond0_1 i) (x0 : Vec F S3x8x512 .f32) (x1 : Vec F S4x32 .f32) (x2 : Vec F S2x512 .f32) (x3 : Vec F S2x512 .f32) (x4 : Vec F S1x512 .f32) (xs0 : Vec F S8x512 .f32) :
    sout0_B_0 c i arg2 harg2 arg3 harg3 arg4 harg4 arg5 harg5 arg6 harg6 arg7 harg7 arg8 harg8 hc0 hc1 x0 x1 x2 x3 x4 xs0 = step x0 x1 x2 x3 x4 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 x4 xs0)]
  unfold kernelRun0_B
  dsimp only
  sl_unfold_words
  rw [View.canon_unit_zero hz]
  simp only [View.readAt_eq_ld, harg2.read_unread, harg3.read_unread, harg4.read_unread, harg5.read_unread, harg6.read_unread,
    harg8.read_unread, View.ld_unit_zero (S := S3x8x512) hz3, View.ld_unit_zero (S := S4x32) hz, View.ld_unit_zero (S := S2x512) hz,
    View.ld_unit_zero (S := S1x512) hz, View.ld_unit_zero (S := S8x512) hz]
  rfl

/-- At the first point of a row the scratch is reset, then stepped: one step on from the zero block. -/
theorem sout_A (c : Dev nD) (i : grid0.Coords) (arg2 : Memref sig .tc .vmem S3x8x512 .f32) (harg2 : arg2.IsWhole) (arg3 : Memref sig .tc .vmem S4x32 .f32) (harg3 : arg3.IsWhole) (arg4 : Memref sig .tc .vmem S2x512 .f32) (harg4 : arg4.IsWhole) (arg5 : Memref sig .tc .vmem S2x512 .f32) (harg5 : arg5.IsWhole) (arg6 : Memref sig .tc .vmem S1x512 .f32) (harg6 : arg6.IsWhole) (arg7 : Memref sig .tc .vmem S8x512 .f32) (harg7 : arg7.IsWhole) (arg8 : Memref sig .tc .vmem S8x512 .f32) (harg8 : arg8.IsWhole) (hc0 : cond0_0 i) (hc1 : ¬cond0_1 i) (x0 : Vec F S3x8x512 .f32) (x1 : Vec F S4x32 .f32) (x2 : Vec F S2x512 .f32) (x3 : Vec F S2x512 .f32) (x4 : Vec F S1x512 .f32) :
    sout0_A_0 c i arg2 harg2 arg3 harg3 arg4 harg4 arg5 harg5 arg6 harg6 arg7 harg7 arg8 harg8 hc0 hc1 x0 x1 x2 x3 x4 = step x0 x1 x2 x3 x4 k0_pay2 := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S8x512) hz, View.readCov_unit_zero (S := S8x512) _ hz]
  simp only [View.readAt_eq_ld, harg2.read_unread, harg3.read_unread, harg4.read_unread, harg5.read_unread, harg6.read_unread,
    harg8.read_unread, View.ld_unit_zero (S := S3x8x512) hz3, View.ld_unit_zero (S := S4x32) hz, View.ld_unit_zero (S := S2x512) hz,
    View.ld_unit_zero (S := S1x512) hz, View.ld_unit_zero (S := S8x512) hz]
  rfl

/-- At the last point of a row the output block receives the scratch as just stepped. -/
theorem out_C (c : Dev nD) (i : grid0.Coords) (arg2 : Memref sig .tc .vmem S3x8x512 .f32) (harg2 : arg2.IsWhole) (arg3 : Memref sig .tc .vmem S4x32 .f32) (harg3 : arg3.IsWhole) (arg4 : Memref sig .tc .vmem S2x512 .f32) (harg4 : arg4.IsWhole) (arg5 : Memref sig .tc .vmem S2x512 .f32) (harg5 : arg5.IsWhole) (arg6 : Memref sig .tc .vmem S1x512 .f32) (harg6 : arg6.IsWhole) (arg7 : Memref sig .tc .vmem S8x512 .f32) (harg7 : arg7.IsWhole) (arg8 : Memref sig .tc .vmem S8x512 .f32) (harg8 : arg8.IsWhole) (hc0 : ¬cond0_0 i) (hc1 : cond0_1 i) (x0 : Vec F S3x8x512 .f32) (x1 : Vec F S4x32 .f32) (x2 : Vec F S2x512 .f32) (x3 : Vec F S2x512 .f32) (x4 : Vec F S1x512 .f32) (xs0 : Vec F S8x512 .f32) :
    out0_C_5 c i arg2 harg2 arg3 harg3 arg4 harg4 arg5 harg5 arg6 harg6 arg7 harg7 arg8 harg8 hc0 hc1 x0 x1 x2 x3 x4 xs0 = step x0 x1 x2 x3 x4 xs0 := by
  unfold out0_C_5
  rw [View.read_writes_eq_canon _ _ _ (cover0_C_5 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz, View.readCov_unit_zero (S := S8x512) _ hz]
  simp only [View.readAt_eq_ld, harg2.read_unread, harg3.read_unread, harg4.read_unread, harg5.read_unread, harg6.read_unread,
    harg8.read_unread, View.ld_unit_zero (S := S3x8x512) hz3, View.ld_unit_zero (S := S4x32) hz, View.ld_unit_zero (S := S2x512) hz,
    View.ld_unit_zero (S := S1x512) hz, View.ld_unit_zero (S := S8x512) hz]
  rfl

end Cert.KernelIdeal.Acc

end
-- ==== Proof.Spec.lean ====
/-
  The function both programs compute, on the extended reals, index by index.

  A point (b, n) of the diagram has coordinates cx = diag(b, n, 0), cy = diag(b, n, 1) and a soft mask diag(b, n, 2).
  Its weight is a sum of 32 Gaussians, exp(-((cx - mx_g)² vx_g² + (cy - my_g)² vy_g²)), the means and inverse scales being
  the rows of Wg. Its feature k is (1 + |cx - LM(0,k)| |LV(0,k)| + |cy - LM(1,k)| |LV(1,k)|) ^ (-LA k), written here as
  exp((0 - LA k) · log base). Entry (b, k) of the result is the sum over the 2048 points n of feature · (weight · mask).
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The float pattern of 1.0, as an extended real. -/
def one : EReal := Ideal.ofBits .f32 0x3F800000#32

/-- It denotes the real number 1. -/
theorem one_eq : one = 1 := by
  unfold one
  simp [Ideal.ofBits, Ideal.ieee, -EReal.coe_mul]; norm_num

/-- One Gaussian of the mixture at a point (cx, cy): mean (mx, my), inverse scales (vx, vy). -/
def gauss (cx cy mx my vx vy : EReal) : EReal :=
  Ideal.exp (0 - ((cx - mx) * (cx - mx) * (vx * vx) + (cy - my) * (cy - my) * (vy * vy)))

/-- The base of the rational feature: 1 + |cx - mx| |vx| + |cy - my| |vy|, the absolute value as max x (-x). -/
def base (cx cy mx my vx vy : EReal) : EReal :=
  one + max (cx - mx) (-(cx - mx)) * max vx (-vx) + max (cy - my) (-(cy - my)) * max vy (-vy)

/-- base ^ (-a), as the exponential of (0 - a) · log base. -/
def feat (bs a : EReal) : EReal := Ideal.exp ((0 - a) * Ideal.log bs)

/-- The contribution of point (r, j) of a block of 8 × 512 points to feature k: the block x0 holds cx, cy and the mask
    as its three planes, x1 is Wg, x2 is LM, x3 is LV, x4 is LA as one row. -/
def contribBlk (x0 : (⟨3, ![3, 8, 512]⟩ : Shape).Idx → EReal) (x1 : (⟨2, ![4, 32]⟩ : Shape).Idx → EReal)
    (x2 x3 : (⟨2, ![2, 512]⟩ : Shape).Idx → EReal) (x4 : (⟨2, ![1, 512]⟩ : Shape).Idx → EReal)
    (r : Fin 8) (j : Fin 512) (k : Fin 512) : EReal :=
  feat (base (x0 (ix3 0 r j)) (x0 (ix3 1 r j)) (x2 (ix2 0 k)) (x2 (ix2 1 k)) (x3 (ix2 0 k)) (x3 (ix2 1 k))) (x4 (ix2 0 k))
    * ((∑ g : Fin 32, gauss (x0 (ix3 0 r j)) (x0 (ix3 1 r j)) (x1 (ix2 0 g)) (x1 (ix2 1 g)) (x1 (ix2 2 g)) (x1 (ix2 3 g)))
        * x0 (ix3 2 r j))

/-- The Gaussian-mixture weight of point (b, n). -/
def weight (diag : (⟨3, ![64, 2048, 3]⟩ : Shape).Idx → EReal) (wg : (⟨2, ![4, 32]⟩ : Shape).Idx → EReal)
    (b : Fin 64) (n : Fin 2048) : EReal :=
  ∑ g : Fin 32, gauss (diag (ix3 b n 0)) (diag (ix3 b n 1)) (wg (ix2 0 g)) (wg (ix2 1 g)) (wg (ix2 2 g)) (wg (ix2 3 g))

/-- The contribution of point (b, n) to feature k. -/
def contrib (diag : (⟨3, ![64, 2048, 3]⟩ : Shape).Idx → EReal) (wg : (⟨2, ![4, 32]⟩ : Shape).Idx → EReal)
    (lm lv : (⟨2, ![2, 512]⟩ : Shape).Idx → EReal) (la : (⟨1, ![512]⟩ : Shape).Idx → EReal)
    (b : Fin 64) (n : Fin 2048) (k : Fin 512) : EReal :=
  feat (base (diag (ix3 b n 0)) (diag (ix3 b n 1)) (lm (ix2 0 k)) (lm (ix2 1 k)) (lv (ix2 0 k)) (lv (ix2 1 k))) (la (ix1 k))
    * (weight diag wg b n * diag (ix3 b n 2))

/-- The permutation-invariant vector: entry (b, k) sums the contributions of the 2048 points of diagram b. -/
def vec (diag : (⟨3, ![64, 2048, 3]⟩ : Shape).Idx → EReal) (wg : (⟨2, ![4, 32]⟩ : Shape).Idx → EReal)
    (lm lv : (⟨2, ![2, 512]⟩ : Shape).Idx → EReal) (la : (⟨1, ![512]⟩ : Shape).Idx → EReal) :
    (⟨2, ![64, 512]⟩ : Shape).Idx → EReal :=
  fun j => ∑ n : Fin 2048, contrib diag wg lm lv la (j 0) n (j 1)

/-- Point j of quarter q of the 2048 points. -/
def qpt (q : Fin 4) (j : Fin 512) : Fin 2048 := ⟨512 * q.val + j.val, by have := q.isLt; have := j.isLt; omega⟩

/-- A sum over 2048 points, taken a quarter at a time from zero, first quarter first: addition of extended reals is
    associative and commutative, so the grouping does not matter. -/
theorem sum_quarters (f : Fin 2048 → EReal) :
    ∑ n : Fin 2048, f n
      = (((0 + ∑ j : Fin 512, f (qpt 0 j)) + ∑ j : Fin 512, f (qpt 1 j)) + ∑ j : Fin 512, f (qpt 2 j))
          + ∑ j : Fin 512, f (qpt 3 j) := by
  have e : ∑ n : Fin 2048, f n = ∑ p : Fin 4 × Fin 512, f (finProdFinEquiv p) :=
    (Equiv.sum_comp (finProdFinEquiv (m := 4) (n := 512)) f).symm
  rw [e, Fintype.sum_prod_type, Fin.sum_univ_four, zero_add]
  have h : ∀ (q : Fin 4) (j : Fin 512), (finProdFinEquiv (q, j) : Fin (4 * 512)) = qpt q j := fun q j =>
    Fin.ext (by show j.val + 512 * q.val = 512 * q.val + j.val; omega)
  simp only [h]

end Cert.Spec

end
-- ==== Proof.PayWeight.lean ====
/-
  The first half of the body's arithmetic at an index, on the extended reals: the three planes of the point block
  (cx, cy, mask) and the Gaussian-mixture weight of point (r, j), a sum over the 32 components.
-/
import proofs.«180805_j7481833030230_2_alg».proof.Proof.Gen.KernelIdeal.Skeleton
import proofs.«180805_j7481833030230_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.PayW

open Idealize.ShloMosaic Idealize.ShloMosaic.ValueIdx Cert.KernelIdeal Cert.KernelIdeal.Gen

/-! ## Layout steps read at an index, over a variable vector -/

section Layout
variable {α : Type}

/-- A stack of planes cut to plane `d` reads, at `(u, r, j)`, the stack at `(k, r, j)` with `k = d`. -/
theorem W_plane_apply {n0 n1 n2 : Nat} (d : Nat) (X : (⟨3, ![n0, n1, n2]⟩ : Shape).Idx → α)
    (h : (⟨3, ![n0, n1, n2]⟩ : Shape).Slices ![d, 0, 0] ⟨3, ![1, n1, n2]⟩)
    (u : Fin 1) (r : Fin n1) (j : Fin n2) (k : Fin n0) (hk : k.val = d) :
    extractStridedSlice ⟨3, ![1, n1, n2]⟩ ![d, 0, 0] X h (ix3 u r j) = X (ix3 k r j) :=
  extractStridedSlice_apply _ _ _ _ _ (fun ax => by
    match ax with
    | ⟨0, _⟩ => show k.val = d + u.val; omega
    | ⟨1, _⟩ => exact (Nat.zero_add _).symm
    | ⟨2, _⟩ => exact (Nat.zero_add _).symm)

/-- Plane `d` of a stack, its unit axis dropped, reads at `(r, j)` the stack at `(k, r, j)` with `k = d`. -/
theorem W_planeDrop_apply {n0 n1 n2 : Nat} (d : Nat) (X : (⟨3, ![n0, n1, n2]⟩ : Shape).Idx → α)
    (h : (⟨3, ![n0, n1, n2]⟩ : Shape).Slices ![d, 0, 0] ⟨3, ![1, n1, n2]⟩)
    (hc : (⟨3, ![1, n1, n2]⟩ : Shape).ShapeCasts ⟨2, ![n1, n2]⟩)
    (r : Fin n1) (j : Fin n2) (k : Fin n0) (hk : k.val = d) :
    shapeCast ⟨2, ![n1, n2]⟩ (extractStridedSlice ⟨3, ![1, n1, n2]⟩ ![d, 0, 0] X h) hc (ix2 r j) = X (ix3 k r j) :=
  (shapeCast_1ab_ab_apply _ hc r j).trans (W_plane_apply d X h 0 r j k hk)

/-- Row `d` of a matrix, viewed as a `[1, 1, n]` array, reads at `(u, v, g)` the matrix at `(k, g)` with `k = d`. -/
theorem W_row_apply {m n : Nat} (d : Nat) (W : (⟨2, ![m, n]⟩ : Shape).Idx → α)
    (hs : (⟨2, ![m, n]⟩ : Shape).Slices ![d, 0] ⟨2, ![1, n]⟩)
    (hc1 : (⟨2, ![1, n]⟩ : Shape).ShapeCasts ⟨1, ![n]⟩) (hc2 : (⟨1, ![n]⟩ : Shape).ShapeCasts ⟨3, ![1, 1, n]⟩)
    (u v : Fin 1) (g : Fin n) (k : Fin m) (hk : k.val = d) :
    shapeCast ⟨3, ![1, 1, n]⟩ (shapeCast ⟨1, ![n]⟩ (extractStridedSlice ⟨2, ![1, n]⟩ ![d, 0] W hs) hc1) hc2 (ix3 u v g)
      = W (ix2 k g) := by
  refine (shapeCast_apply _ hc2 (ix3 u v g) (ix1 g) ?_).trans ?_
  · have hu : u.val = 0 := by omega
    have hv : v.val = 0 := by omega
    rw [Shape.rowMajor_val_three, Shape.rowMajor_val_one]
    show g.val = (u.val * 1 + v.val) * n + g.val
    rw [hu, hv]; simp
  · refine (shapeCast_1a_a_apply _ hc1 g).trans ?_
    exact slice2_axis0_apply d W hs 0 g k (by show k.val = d + 0; omega)

/-- A matrix given a trailing unit axis reads, at `(r, j, w)`, the matrix at `(r, j)`. -/
theorem W_addTrail_apply {a b : Nat} (X : (⟨2, ![a, b]⟩ : Shape).Idx → α)
    (h : (⟨2, ![a, b]⟩ : Shape).ShapeCasts ⟨3, ![a, b, 1]⟩) (r : Fin a) (j : Fin b) (w : Fin 1) :
    shapeCast ⟨3, ![a, b, 1]⟩ X h (ix3 r j w) = X (ix2 r j) :=
  shapeCast_apply X h _ _ (by
    have hw : w.val = 0 := by omega
    rw [Shape.rowMajor_val_three, Shape.rowMajor_val_two]
    show r.val * b + j.val = (r.val * b + j.val) * 1 + w.val
    rw [hw, Nat.mul_one, Nat.add_zero])

/-- An `[a, b, 1]` array spread along its last axis reads, at `(r, j, g)`, the array at `(r, j, 0)`. -/
theorem W_spreadLast_apply {a b c : Nat} (Y : (⟨3, ![a, b, 1]⟩ : Shape).Idx → α)
    (h : (⟨3, ![a, b, 1]⟩ : Shape).Broadcasts ⟨3, ![a, b, c]⟩) (r : Fin a) (j : Fin b) (g : Fin c) :
    broadcastTo ⟨3, ![a, b, c]⟩ Y h (ix3 r j g) = Y (ix3 r j (0 : Fin 1)) := by
  refine broadcastTo_apply Y h (ix3 r j g) (ix3 r j (0 : Fin 1)) fun ax => ?_
  match ax with
  | ⟨0, _⟩ =>
    show r.val = if a = 1 then 0 else r.val
    split
    · have := r.isLt; omega
    · rfl
  | ⟨1, _⟩ =>
    show j.val = if b = 1 then 0 else j.val
    split
    · have := j.isLt; omega
    · rfl
  | ⟨2, _⟩ => rfl

/-- A `[1, 1, c]` array spread over the first two axes reads, at `(r, j, g)`, the array at `(0, 0, g)`. -/
theorem W_spreadLead_apply {a b c : Nat} (Y : (⟨3, ![1, 1, c]⟩ : Shape).Idx → α)
    (h : (⟨3, ![1, 1, c]⟩ : Shape).Broadcasts ⟨3, ![a, b, c]⟩) (r : Fin a) (j : Fin b) (g : Fin c) :
    broadcastTo ⟨3, ![a, b, c]⟩ Y h (ix3 r j g) = Y (ix3 (0 : Fin 1) (0 : Fin 1) g) := by
  refine broadcastTo_apply Y h (ix3 r j g) (ix3 (0 : Fin 1) (0 : Fin 1) g) fun ax => ?_
  match ax with
  | ⟨0, _⟩ => rfl
  | ⟨1, _⟩ => rfl
  | ⟨2, _⟩ =>
    show g.val = if c = 1 then 0 else g.val
    split
    · have := g.isLt; omega
    · rfl

/-- A matrix given a trailing unit axis and spread along it reads, at `(r, j, g)`, the matrix at `(r, j)`. -/
theorem W_col_apply {a b c : Nat} (X : (⟨2, ![a, b]⟩ : Shape).Idx → α)
    (h1 : (⟨2, ![a, b]⟩ : Shape).ShapeCasts ⟨3, ![a, b, 1]⟩) (h2 : (⟨3, ![a, b, 1]⟩ : Shape).Broadcasts ⟨3, ![a, b, c]⟩)
    (r : Fin a) (j : Fin b) (g : Fin c) :
    broadcastTo ⟨3, ![a, b, c]⟩ (shapeCast ⟨3, ![a, b, 1]⟩ X h1) h2 (ix3 r j g) = X (ix2 r j) :=
  (W_spreadLast_apply _ h2 r j g).trans (W_addTrail_apply X h1 r j 0)

end Layout

/-! ## The three planes of the point block -/

theorem pay4_apply (x0 : Vec Ideal S3x8x512 .f32) (r : Fin 8) (j : Fin 512) :
    k0_pay4 (F := Ideal) x0 (ix2 r j) = x0 (ix3 0 r j) := by
  unfold k0_pay4 k0_pay3
  refine (W_planeDrop_apply 0 _ _ _ r j 0 rfl).trans ?_
  exact congrFun (shapeCast_self x0 _) _

theorem pay5_apply (x0 : Vec Ideal S3x8x512 .f32) (r : Fin 8) (j : Fin 512) :
    k0_pay5 (F := Ideal) x0 (ix2 r j) = x0 (ix3 1 r j) := by
  unfold k0_pay5 k0_pay3
  refine (W_planeDrop_apply 1 _ _ _ r j 1 rfl).trans ?_
  exact congrFun (shapeCast_self x0 _) _

theorem pay6_apply (x0 : Vec Ideal S3x8x512 .f32) (r : Fin 8) (j : Fin 512) :
    k0_pay6 (F := Ideal) x0 (ix2 r j) = x0 (ix3 2 r j) := by
  unfold k0_pay6 k0_pay3
  refine (W_planeDrop_apply 2 _ _ _ r j 2 rfl).trans ?_
  exact congrFun (shapeCast_self x0 _) _

/-! ## The Gaussian-mixture weight -/

/-- The index the sum over the last axis inserts lane `g` at, from `(r, j)`, is `(r, j, g)`. -/
theorem W_lift_eq (h : Shape.Reduces S8x512x32 [2] S8x512) (r : Fin 8) (j : Fin 512) (g : Fin 32) :
    h.lift (ix2 r j) g = ix3 r j g := by
  funext a
  match a with
  | ⟨0, _⟩ => exact Fin.ext rfl
  | ⟨1, _⟩ => exact Fin.ext rfl
  | ⟨2, _⟩ => exact Fin.ext rfl

/-- One Gaussian's arithmetic at an index, over variable vectors: the exponential of `z` less the two squared
    differences, each times a squared inverse scale; `z` is a scalar that denotes 0, and each operand is given by its
    value at the index. -/
theorem W_gauss_at {s : Shape} (z : Ideal .f32) (hz : z = 0) (a b c d e f : FVec Ideal s .f32) (i : s.Idx)
    (cx cy mx my vx vy : EReal) (ha : a i = cx) (hb : b i = mx) (hc : c i = cy) (hd : d i = my)
    (he : e i = vx * vx) (hf : f i = vy * vy) :
    Idealize.ShloMosaic.exp (subf (broadcast s z)
        (addf (mulf (mulf (subf a b) (subf a b)) e) (mulf (mulf (subf c d) (subf c d)) f))) i
      = Cert.Spec.gauss cx cy mx my vx vy := by
  subst hz
  show Ideal.exp (0 - ((a i - b i) * (a i - b i) * e i + (c i - d i) * (c i - d i) * f i)) = _
  rw [ha, hb, hc, hd, he, hf]
  rfl

/-- Row `d` of the weights, squared entry by entry as a `[1, 1, 32]` array and spread over the points, reads at
    `(r, j, g)` the square of the weight at `(k, g)`, `k = d`. -/
theorem W_rowSq_apply (d : Nat) (W : Vec Ideal S4x32 .f32) (hs : S4x32.Slices ![d, 0] S1x32)
    (hc1 : S1x32.ShapeCasts S32) (hc2 : S32.ShapeCasts S1x1x32) (hb : S1x1x32.Broadcasts S8x512x32)
    (r : Fin 8) (j : Fin 512) (g : Fin 32) (k : Fin 4) (hk : k.val = d) :
    broadcastTo S8x512x32
        (mulf (F := Ideal) (φ := .f32) (shapeCast S1x1x32 (shapeCast S32 (extractStridedSlice S1x32 ![d, 0] W hs) hc1) hc2)
          (shapeCast S1x1x32 (shapeCast S32 (extractStridedSlice S1x32 ![d, 0] W hs) hc1) hc2)) hb (ix3 r j g)
      = W (ix2 k g) * W (ix2 k g) := by
  refine (W_spreadLead_apply _ hb r j g).trans ?_
  refine (mulf_apply _ _ _).trans ?_
  rw [W_row_apply d W hs hc1 hc2 0 0 g k hk]

theorem pay7_apply (x0 : Vec Ideal S3x8x512 .f32) (x1 : Vec Ideal S4x32 .f32) (r : Fin 8) (j : Fin 512) :
    k0_pay7 (F := Ideal) x0 x1 (ix2 r j)
      = ∑ g : Fin 32, Cert.Spec.gauss (x0 (ix3 0 r j)) (x0 (ix3 1 r j)) (x1 (ix2 0 g)) (x1 (ix2 1 g)) (x1 (ix2 2 g)) (x1 (ix2 3 g)) := by
  unfold k0_pay7
  refine (Ideal.multiReduction_add_single _ _ _ _ _ _).trans ?_
  refine Finset.sum_congr rfl fun (g : Fin 32) _ => ?_
  refine (congrArg _ (W_lift_eq _ r j g)).trans ?_
  refine W_gauss_at _ Ideal.ofBits_zero_f32 _ _ _ _ _ _ _ _ _ _ _ _ _ ?_ ?_ ?_ ?_ ?_ ?_
  · exact (W_col_apply _ _ _ r j g).trans (pay4_apply x0 r j)
  · exact (W_spreadLead_apply _ _ r j g).trans (W_row_apply 0 x1 _ _ _ 0 0 g 0 rfl)
  · exact (W_col_apply _ _ _ r j g).trans (pay5_apply x0 r j)
  · exact (W_spreadLead_apply _ _ r j g).trans (W_row_apply 1 x1 _ _ _ 0 0 g 1 rfl)
  · exact W_rowSq_apply 2 x1 _ _ _ _ r j g 2 rfl
  · exact W_rowSq_apply 3 x1 _ _ _ _ r j g 3 rfl

end Cert.KernelIdeal.PayW

end
-- ==== Proof.PayFeat.lean ====
/-
  The second half of the body's arithmetic at an index, on the extended reals, over the planes and the weight as given
  vectors: the new scratch at (r, k) is the old scratch there plus the sum over the 512 points j of row r of
  feature k of the point times its weight times its mask. The reset block is zero.
-/
import proofs.«180805_j7481833030230_2_alg».proof.Proof.Gen.KernelIdeal.Skeleton
import proofs.«180805_j7481833030230_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.PayF

open Idealize.ShloMosaic Idealize.ShloMosaic.ValueIdx Cert.KernelIdeal Cert.KernelIdeal.Gen

/-! ## The layout steps at an index, over any vector -/

section Layout
variable {α : Type}

/-- A vector over 8 × 512 seen as 8 × 512 × 1 reads (r, j) at (r, j, 0): the two row-major positions agree. -/
theorem P_cast3 (v : S8x512.Idx → α) (h : S8x512.ShapeCasts S8x512x1) (r : Fin 8) (j : Fin 512) (c : Fin 1) :
    shapeCast S8x512x1 v h (ix3 r j c) = v (ix2 r j) := by
  refine shapeCast_apply v h _ _ ?_
  rw [Shape.rowMajor_val_two, Shape.rowMajor_val_three]
  show r.val * 512 + j.val = (r.val * 512 + j.val) * 1 + c.val
  have := c.isLt
  omega

/-- An 8 × 512 × 1 vector spread along a new last axis of 512 reads (r, j, 0) at every (r, j, k). -/
theorem P_bcastPt (x : S8x512x1.Idx → α) (h : S8x512x1.Broadcasts S8x512x512) (r : Fin 8) (j k : Fin 512) :
    broadcastTo S8x512x512 x h (ix3 r j k) = x (ix3 r j 0) := by
  refine broadcastTo_apply x h _ _ fun a => ?_
  match a with
  | ⟨0, _⟩ => rfl
  | ⟨1, _⟩ => rfl
  | ⟨2, _⟩ => rfl

/-- A 1 × 1 × 512 vector spread over 8 × 512 leading positions reads (0, 0, k) at every (r, j, k). -/
theorem P_bcastFeat (x : S1x1x512.Idx → α) (h : S1x1x512.Broadcasts S8x512x512) (r : Fin 8) (j k : Fin 512) :
    broadcastTo S8x512x512 x h (ix3 r j k) = x (ix3 0 0 k) := by
  refine broadcastTo_apply x h _ _ fun a => ?_
  match a with
  | ⟨0, _⟩ => rfl
  | ⟨1, _⟩ => rfl
  | ⟨2, _⟩ => rfl

/-- Row 0 of a 2 × 512 vector, as a 1 × 512 vector. -/
theorem P_row0 (v : S2x512.Idx → α) (h : S2x512.Slices ![0, 0] S1x512) (c : Fin 1) (k : Fin 512) :
    extractStridedSlice S1x512 ![0, 0] v h (ix2 c k) = v (ix2 0 k) := by
  refine extractStridedSlice_apply _ v h _ _ fun a => ?_
  match a with
  | ⟨0, _⟩ => show 0 = 0 + c.val; have := c.isLt; omega
  | ⟨1, _⟩ => show k.val = 0 + k.val; omega

/-- Row 1 of a 2 × 512 vector, as a 1 × 512 vector. -/
theorem P_row1 (v : S2x512.Idx → α) (h : S2x512.Slices ![1, 0] S1x512) (c : Fin 1) (k : Fin 512) :
    extractStridedSlice S1x512 ![1, 0] v h (ix2 c k) = v (ix2 1 k) := by
  refine extractStridedSlice_apply _ v h _ _ fun a => ?_
  match a with
  | ⟨0, _⟩ => show 1 = 1 + c.val; have := c.isLt; omega
  | ⟨1, _⟩ => show k.val = 0 + k.val; omega

/-- A 1 × 512 vector seen as a flat one of 512 reads (0, k) at k. -/
theorem P_flat (x : S1x512.Idx → α) (h : S1x512.ShapeCasts S512) (k : Fin 512) :
    shapeCast S512 x h (ix1 k) = x (ix2 0 k) := by
  refine shapeCast_apply x h _ _ ?_
  rw [Shape.rowMajor_val_two, Shape.rowMajor_val_one]
  show 0 * 512 + k.val = k.val
  omega

/-- A flat vector of 512 seen as 1 × 1 × 512 reads k at (0, 0, k). -/
theorem P_lift3 (x : S512.Idx → α) (h : S512.ShapeCasts S1x1x512) (a b : Fin 1) (k : Fin 512) :
    shapeCast S1x1x512 x h (ix3 a b k) = x (ix1 k) := by
  refine shapeCast_apply x h _ _ ?_
  rw [Shape.rowMajor_val_one, Shape.rowMajor_val_three]
  show k.val = (a.val * 1 + b.val) * 512 + k.val
  have := a.isLt
  have := b.isLt
  omega

/-- The reduced index (r, k) with the point coordinate j put back on axis 1 is (r, j, k). -/
theorem P_lift (h : S8x512x512.Reduces [1] S8x512) (r : Fin 8) (k j : Fin 512) :
    h.lift (ix2 r k) j = ix3 r j k := by
  funext a
  match a with
  | ⟨0, _⟩ => exact Fin.ext rfl
  | ⟨1, _⟩ => exact Fin.ext rfl
  | ⟨2, _⟩ => exact Fin.ext rfl

end Layout

/-- The sum over axis 1 of an 8 × 512 × 512 vector, read at (r, k): the sum over the 512 points j of the entry (r, j, k). -/
theorem P_sum (src : FVec Ideal S8x512x512 .f32) (acc : BitVec FTy.f32.bits) (h : S8x512x512.Reduces [1] S8x512)
    (hφ : FKind.Formats .f32) (hacc : acc = FKind.add.neutral .f32 hφ) (r : Fin 8) (k : Fin 512) :
    multiReduction .add [1] S8x512 src acc h hφ hacc (ix2 r k) = ∑ j : Fin 512, src (ix3 r j k) := by
  refine (Ideal.multiReduction_add_single src acc h hφ hacc (ix2 r k)).trans ?_
  exact Finset.sum_congr rfl fun j _ => congrArg src (P_lift h r k j)

/-! ## The pointwise steps at an index, on the extended reals -/

section Pointwise
variable {s : Shape}

/-- An exponential at an index is the exponential of the element … -/
theorem P_exp_apply (x : FVec Ideal s .f32) (i : s.Idx) : exp x i = Ideal.exp (x i) := rfl
/-- … a logarithm the logarithm … -/
theorem P_log_apply (x : FVec Ideal s .f32) (i : s.Idx) : log x i = Ideal.log (x i) := rfl
/-- … and an absolute value the larger of the element and its negation. -/
theorem P_absf_apply (x : FVec Ideal s .f32) (i : s.Idx) : absf x i = max (x i) (-(x i)) := rfl

end Pointwise

theorem pay8_apply (v6 v8 v10 v44 : FVec Ideal S8x512 .f32) (v45 v46 : Vec Ideal S2x512 .f32) (v47 : Vec Ideal S1x512 .f32)
    (v92 : Vec Ideal S8x512 .f32) (r : Fin 8) (k : Fin 512) :
    k0_pay1 (F := Ideal) (k0_pay8 v6 v8 v10 v44 v45 v46 v47 v92) (ix2 r k)
      = v92 (ix2 r k) + ∑ j : Fin 512,
          Cert.Spec.feat (Cert.Spec.base (v6 (ix2 r j)) (v8 (ix2 r j)) (v45 (ix2 0 k)) (v45 (ix2 1 k)) (v46 (ix2 0 k)) (v46 (ix2 1 k)))
              (v47 (ix2 0 k))
            * (v44 (ix2 r j) * v10 (ix2 r j)) := by
  unfold k0_pay1 k0_pay8
  rw [shapeCast_self, addf_apply]
  refine congrArg (v92 (ix2 r k) + ·) ?_
  refine (P_sum _ _ _ _ _ r k).trans ?_
  refine Finset.sum_congr rfl fun j _ => ?_
  simp only [mulf_apply, addf_apply, subf_apply, broadcast_apply, P_exp_apply, P_log_apply, P_absf_apply,
    P_bcastPt, P_bcastFeat, P_cast3, P_lift3, P_flat, P_row0, P_row1, shapeCast_self]
  unfold Cert.Spec.feat Cert.Spec.base Cert.Spec.one
  simp only [Ideal.ofBits_def, Ideal.ofBits_zero_f32]

theorem pay2_apply (j : S8x512.Idx) : k0_pay2 (F := Ideal) j = (0 : EReal) := by
  unfold k0_pay2
  rw [shapeCast_self]
  exact Ideal.ofBits_zero_f32

end Cert.KernelIdeal.PayF

end
-- ==== Proof.Payload.lean ====
/-
  The body's arithmetic at an index, on the extended reals: the new scratch at (r, k) is the old scratch there plus the sum
  over the block's 512 points of row r of their contributions to feature k.
-/
import proofs.«180805_j7481833030230_2_alg».proof.Proof.PayWeight
import proofs.«180805_j7481833030230_2_alg».proof.Proof.PayFeat

noncomputable section

namespace Cert.KernelIdeal.Pay

open Idealize.ShloMosaic Idealize.ShloMosaic.ValueIdx Cert.KernelIdeal Cert.KernelIdeal.Gen

theorem pay_apply (x0 : Vec Ideal S3x8x512 .f32) (x1 : Vec Ideal S4x32 .f32) (x2 x3 : Vec Ideal S2x512 .f32)
    (x4 : Vec Ideal S1x512 .f32) (acc : Vec Ideal S8x512 .f32) (r : Fin 8) (k : Fin 512) :
    k0_pay1 (F := Ideal) (k0_pay8 (k0_pay4 x0) (k0_pay5 x0) (k0_pay6 x0) (k0_pay7 x0 x1) x2 x3 x4 acc) (ix2 r k)
      = acc (ix2 r k) + ∑ j : Fin 512, Cert.Spec.contribBlk x0 x1 x2 x3 x4 r j k := by
  refine (PayF.pay8_apply _ _ _ _ x2 x3 x4 acc r k).trans ?_
  refine congrArg (acc (ix2 r k) + ·) (Finset.sum_congr rfl fun j _ => ?_)
  rw [PayW.pay4_apply, PayW.pay5_apply, PayW.pay6_apply, PayW.pay7_apply]
  rfl

end Cert.KernelIdeal.Pay

end
-- ==== Proof.Blocks.lean ====
/-
  What the body's input blocks hold, in terms of the argument arrays. The diagram is transposed before the region, so
  plane d, row r, column j of the block at grid point t is diag(8 (t / 4) + r, 512 (t mod 4) + j, d); the parameter
  blocks are the whole parameter arrays at every point, LA as one row.
-/
import proofs.«180805_j7481833030230_2_alg».proof.Proof.Gen.KernelIdeal.Frame.Runs
import Idealize.ShloMosaic.Lib.Pipeline.Value
import Idealize.ShloMosaic.Lib.StableHlo.Run
import Idealize.ShloMosaic.Lib.ValueIdx

noncomputable section

namespace Cert.KernelIdeal.Blk

open Idealize.ShloMosaic Idealize.ShloMosaic.TcCoe Idealize.ShloMosaic.ValueIdx Idealize.SL.Sem Cert.KernelIdeal Cert.KernelIdeal.Gen

variable {F : FTy → Type} [FloatOps F]
variable (m : (ℓ : Loc nD τ sig) → Buf (Elt F) ℓ)

/-! ## The block indices, decided once over the 8 × 4 grid

Point t has coordinates (t / 4, t mod 4). Window 0's block index is (0, t / 4, t mod 4); the parameter windows' block
index is (0, 0) at every point. -/

theorem B_idx0 : ∀ t : Fin cfg0.N, win0_0.index t 0 = 0 ∧ win0_0.index t 1 = t.val / 4 ∧ win0_0.index t 2 = t.val % 4 :=
  (by decide +kernel : ∀ t : Fin grid0.N, win0_0.index t 0 = 0 ∧ win0_0.index t 1 = t.val / 4 ∧ win0_0.index t 2 = t.val % 4)
theorem B_idx1 : ∀ t : Fin cfg0.N, win0_1.index t 0 = 0 ∧ win0_1.index t 1 = 0 :=
  (by decide +kernel : ∀ t : Fin grid0.N, win0_1.index t 0 = 0 ∧ win0_1.index t 1 = 0)
theorem B_idx2 : ∀ t : Fin cfg0.N, win0_2.index t 0 = 0 ∧ win0_2.index t 1 = 0 :=
  (by decide +kernel : ∀ t : Fin grid0.N, win0_2.index t 0 = 0 ∧ win0_2.index t 1 = 0)
theorem B_idx3 : ∀ t : Fin cfg0.N, win0_3.index t 0 = 0 ∧ win0_3.index t 1 = 0 :=
  (by decide +kernel : ∀ t : Fin grid0.N, win0_3.index t 0 = 0 ∧ win0_3.index t 1 = 0)
theorem B_idx4 : ∀ t : Fin cfg0.N, win0_4.index t 0 = 0 ∧ win0_4.index t 1 = 0 :=
  (by decide +kernel : ∀ t : Fin grid0.N, win0_4.index t 0 = 0 ∧ win0_4.index t 1 = 0)

/-! ## The two arrays the host computes before the region -/

/-- The array window 0 reads is the diagram with its last axis moved to the front: entry (d, b, n) of the 3 × 64 × 2048
    array is entry (b, n, d) of the 64 × 2048 × 3 argument. -/
theorem B_V_v0 (c : Dev nD) : (V m c main_v0 : S3x64x2048.Idx → Elt F .f32)
    = transpose S3x64x2048 [2, 0, 1] (m ((c : Thread nD τ).loc main_arg0)) Facts₀.transposes_S64x2048x3_S3x64x2048_2_0_1 := by
  show StableHlo.after hostOps0 (fun b => m (c, b)) (Proc.devRef .tc main_v0) = _
  after_results

/-- The array window 4 reads is the 512-vector LA laid out as one row of 512. -/
theorem B_V_v1 (c : Dev nD) : (V m c main_v1 : S1x512.Idx → Elt F .f32)
    = shapeCast S1x512 (m ((c : Thread nD τ).loc main_arg5)) Facts₀.shapeCasts_S512_S1x512 := by
  show StableHlo.after hostOps0 (fun b => m (c, b)) (Proc.devRef .tc main_v1) = _
  after_results
  rfl

/-! ## The blocks

A block's coordinate in its array is (block index) × (block size) + 1 × (coordinate inside the block), axis by axis. -/

/-- Window 0 at point t: block (0, t / 4, t mod 4) of size 3 × 8 × 512 of the transposed diagram, so its entry (d, r, j)
    is the transposed array at (d, 8 (t / 4) + r, 512 (t mod 4) + j), which is the diagram at
    (8 (t / 4) + r, 512 (t mod 4) + j, d). -/
theorem blk0 (c : Dev nD) (t : Fin cfg0.N) (d : Fin 3) (r : Fin 8) (j : Fin 512)
    (hb : 8 * (t.val / 4) + r.val < 64) (hn : 512 * (t.val % 4) + j.val < 2048) :
    (iblk m c 0 t : Vec F S3x8x512 .f32) (ix3 d r j)
      = m ((c : Thread nD τ).loc main_arg0) (ix3 ⟨8 * (t.val / 4) + r.val, hb⟩ ⟨512 * (t.val % 4) + j.val, hn⟩ d) := by
  have hi := B_idx0 t
  unfold iblk
  rw [View.read_apply]
  show (V m c main_v0 : S3x64x2048.Idx → Elt F .f32) _ = _
  rw [B_V_v0]
  -- result axis b of the transpose is source axis [2, 0, 1][b]
  refine transpose_apply _ _ _ _ _ fun b => ?_
  match b with
  | ⟨0, _⟩ => show d.val = win0_0.index t 0 * 3 + 1 * d.val; rw [hi.1]; omega
  | ⟨1, _⟩ => show 8 * (t.val / 4) + r.val = win0_0.index t 1 * 8 + 1 * r.val; rw [hi.2.1]; omega
  | ⟨2, _⟩ => show 512 * (t.val % 4) + j.val = win0_0.index t 2 * 512 + 1 * j.val; rw [hi.2.2]; omega

/-- Window 1 at every point: block (0, 0) of size 4 × 32 of the 4 × 32 array Wg, that is, Wg itself. -/
theorem blk1 (c : Dev nD) (t : Fin cfg0.N) : (iblk m c 1 t : Vec F S4x32 .f32) = m ((c : Thread nD τ).loc main_arg2) := by
  have hi := B_idx1 t
  funext y
  unfold iblk
  rw [View.read_apply]
  show V m c main_arg2 _ = m (c.tc.loc main_arg2) _
  rw [V_main_arg2]
  congr 1
  funext a
  apply Fin.ext
  match a with
  | ⟨0, _⟩ => show win0_1.index t 0 * 4 + 1 * (y 0).val = (y 0).val; rw [hi.1]; omega
  | ⟨1, _⟩ => show win0_1.index t 1 * 32 + 1 * (y 1).val = (y 1).val; rw [hi.2]; omega

/-- Window 2 at every point: block (0, 0) of size 2 × 512 of the 2 × 512 array LM, that is, LM itself. -/
theorem blk2 (c : Dev nD) (t : Fin cfg0.N) : (iblk m c 2 t : Vec F S2x512 .f32) = m ((c : Thread nD τ).loc main_arg3) := by
  have hi := B_idx2 t
  funext y
  unfold iblk
  rw [View.read_apply]
  show V m c main_arg3 _ = m (c.tc.loc main_arg3) _
  rw [V_main_arg3]
  congr 1
  funext a
  apply Fin.ext
  match a with
  | ⟨0, _⟩ => show win0_2.index t 0 * 2 + 1 * (y 0).val = (y 0).val; rw [hi.1]; omega
  | ⟨1, _⟩ => show win0_2.index t 1 * 512 + 1 * (y 1).val = (y 1).val; rw [hi.2]; omega

/-- Window 3 at every point: block (0, 0) of size 2 × 512 of the 2 × 512 array LV, that is, LV itself. -/
theorem blk3 (c : Dev nD) (t : Fin cfg0.N) : (iblk m c 3 t : Vec F S2x512 .f32) = m ((c : Thread nD τ).loc main_arg4) := by
  have hi := B_idx3 t
  funext y
  unfold iblk
  rw [View.read_apply]
  show V m c main_arg4 _ = m (c.tc.loc main_arg4) _
  rw [V_main_arg4]
  congr 1
  funext a
  apply Fin.ext
  match a with
  | ⟨0, _⟩ => show win0_3.index t 0 * 2 + 1 * (y 0).val = (y 0).val; rw [hi.1]; omega
  | ⟨1, _⟩ => show win0_3.index t 1 * 512 + 1 * (y 1).val = (y 1).val; rw [hi.2]; omega

/-- Window 4 at every point: block (0, 0) of size 1 × 512 of LA as one row, so its entry (0, k) is LA at k: both sit at
    row-major position k. -/
theorem blk4 (c : Dev nD) (t : Fin cfg0.N) (k : Fin 512) :
    (iblk m c 4 t : Vec F S1x512 .f32) (ix2 0 k) = m ((c : Thread nD τ).loc main_arg5) (ix1 k) := by
  have hi := B_idx4 t
  unfold iblk
  rw [View.read_apply]
  show (V m c main_v1 : S1x512.Idx → Elt F .f32) _ = _
  rw [B_V_v1]
  refine shapeCast_apply _ _ _ _ ?_
  show (S512.rowMajor (ix1 k)).val = _
  rw [Shape.rowMajor_val_one, Shape.rowMajor_val_two]
  show k.val = (win0_4.index t 0 * 1 + 1 * (0 : Fin 1).val) * 512 + (win0_4.index t 1 * 512 + 1 * k.val)
  rw [hi.1, hi.2]
  show k.val = (0 * 1 + 1 * 0) * 512 + (0 * 512 + 1 * k.val)
  omega

end Cert.KernelIdeal.Blk

end
-- ==== Proof.KernelValue.lean ====
/-
  The kernel's result, read off its frame run. The grid is 8 rows of 4 points; point t works on diagrams 8 (t / 4) … + 7
  and on points 512 (t mod 4) … + 511 of each. The scratch is reset at the first point of a row and stepped at every
  point, and the output block of the row is written at its last point, so that block holds four steps from zero: the
  four quarter sums of the contributions, which is the sum over all 2048 points. The blocks written at the eight last
  points tile the result array. The host line after the region appends the features.
-/
import proofs.«180805_j7481833030230_2_alg».proof.Proof.Pieces
import proofs.«180805_j7481833030230_2_alg».proof.Proof.Payload
import proofs.«180805_j7481833030230_2_alg».proof.Proof.Blocks
import proofs.«180805_j7481833030230_2_alg».proof.Proof.Spec
import Idealize.ShloMosaic.Lib.Pipeline.Value
import Idealize.ShloMosaic.Lib.StableHlo.Run

noncomputable section

namespace Cert.KernelIdeal.KValue

open Idealize.ShloMosaic Idealize.ShloMosaic.TcCoe Idealize.ShloMosaic.ValueIdx Idealize.SL.Sem
open Cert.KernelIdeal Cert.KernelIdeal.Gen Cert.KernelIdeal.Acc
open Idealize.ShloMosaic.Pipeline (Dat)

/-! ## The scratch along a row of the grid, at any float instance -/

section AnyInstance

variable {F : FTy → Type} [FloatOps F]
variable (m : (ℓ : Loc nD τ sig) → Buf (Elt F) ℓ)

/-- After the first point of a row: one step from the zero block. -/
theorem sc_first (c : Dev nD) (n : ℕ) (h : n < cfg0.N) (h0 : n % 4 = 0) :
    (outsAt0 m c n h).2 = step (iblk m c 0 ⟨n, h⟩) (iblk m c 1 ⟨n, h⟩) (iblk m c 2 ⟨n, h⟩) (iblk m c 3 ⟨n, h⟩) (iblk m c 4 ⟨n, h⟩) k0_pay2 := by
  have h1 : ¬(⟨n, h⟩ : Fin cfg0.N).val % 4 = 3 := by show ¬n % 4 = 3; omega
  refine (congrArg Prod.snd (outsAt0_A m c ⟨n, h⟩ h0 h1)).trans ?_
  dsimp only
  exact sout_A c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) scM0_0 (Memref.isWhole_whole _) ((hcond0_0 ⟨n, h⟩).mpr h0) (fun hh => h1 ((hcond0_1 ⟨n, h⟩).mp hh)) (iblk m c 0 ⟨n, h⟩) (iblk m c 1 ⟨n, h⟩) (iblk m c 2 ⟨n, h⟩) (iblk m c 3 ⟨n, h⟩) (iblk m c 4 ⟨n, h⟩)

/-- After a point that is neither first nor last in its row: one step from what the point before left. -/
theorem sc_mid (c : Dev nD) (n : ℕ) (h : n + 1 < cfg0.N) (h0 : ¬(n + 1) % 4 = 0) (h1 : ¬(n + 1) % 4 = 3) :
    (outsAt0 m c (n + 1) h).2 = step (iblk m c 0 ⟨n + 1, h⟩) (iblk m c 1 ⟨n + 1, h⟩) (iblk m c 2 ⟨n + 1, h⟩) (iblk m c 3 ⟨n + 1, h⟩) (iblk m c 4 ⟨n + 1, h⟩) (outsAt0 m c n (Nat.lt_of_succ_lt h)).2 := by
  refine (congrArg Prod.snd (outsAt0_B m c ⟨n + 1, h⟩ h0 h1)).trans ?_
  dsimp only
  exact sout_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) (fun hh => h0 ((hcond0_0 ⟨n + 1, h⟩).mp hh)) (fun hh => h1 ((hcond0_1 ⟨n + 1, h⟩).mp hh))
    (iblk m c 0 ⟨n + 1, h⟩) (iblk m c 1 ⟨n + 1, h⟩) (iblk m c 2 ⟨n + 1, h⟩) (iblk m c 3 ⟨n + 1, h⟩) (iblk m c 4 ⟨n + 1, h⟩) (outsAt0 m c n (Nat.lt_of_succ_lt h)).2

/-- The output block at the last point of a row: one step from what the point before left in the scratch. -/
theorem out_last (c : Dev nD) (n : ℕ) (h : n + 1 < cfg0.N) (h0 : ¬(n + 1) % 4 = 0) (h1 : (n + 1) % 4 = 3) :
    (outsAt0 m c (n + 1) h).1 = step (iblk m c 0 ⟨n + 1, h⟩) (iblk m c 1 ⟨n + 1, h⟩) (iblk m c 2 ⟨n + 1, h⟩) (iblk m c 3 ⟨n + 1, h⟩) (iblk m c 4 ⟨n + 1, h⟩) (outsAt0 m c n (Nat.lt_of_succ_lt h)).2 := by
  refine (congrArg Prod.fst (outsAt0_C m c ⟨n + 1, h⟩ h0 h1)).trans ?_
  dsimp only
  exact out_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) (fun hh => h0 ((hcond0_0 ⟨n + 1, h⟩).mp hh)) ((hcond0_1 ⟨n + 1, h⟩).mpr h1)
    (iblk m c 0 ⟨n + 1, h⟩) (iblk m c 1 ⟨n + 1, h⟩) (iblk m c 2 ⟨n + 1, h⟩) (iblk m c 3 ⟨n + 1, h⟩) (iblk m c 4 ⟨n + 1, h⟩) (outsAt0 m c n (Nat.lt_of_succ_lt h)).2

end AnyInstance

/-! ## On the extended reals -/

variable (m : (ℓ : Loc nD τ sig) → Buf (Elt Ideal) ℓ) (ρ : Dev nD → PrngReg)

/-- The vector the kernel's region should leave on core c: the specification's function of the argument arrays. -/
def G (c : Dev nD) : Buf (Elt Ideal) ((c : Thread nD τ).loc main_v2) :=
  Cert.Spec.vec (m ((c : Thread nD τ).loc main_arg0)) (m ((c : Thread nD τ).loc main_arg2)) (m ((c : Thread nD τ).loc main_arg3)) (m ((c : Thread nD τ).loc main_arg4)) (m ((c : Thread nD τ).loc main_arg5))

/-- One step at an entry: the old value plus the block's 512 contributions. -/
theorem step_apply (x0 : Vec Ideal S3x8x512 .f32) (x1 : Vec Ideal S4x32 .f32) (x2 x3 : Vec Ideal S2x512 .f32)
    (x4 : Vec Ideal S1x512 .f32) (acc : Vec Ideal S8x512 .f32) (r : Fin 8) (k : Fin 512) :
    step (F := Ideal) x0 x1 x2 x3 x4 acc (ix2 r k) = acc (ix2 r k) + ∑ j : Fin 512, Cert.Spec.contribBlk x0 x1 x2 x3 x4 r j k :=
  Pay.pay_apply x0 x1 x2 x3 x4 acc r k

/-- The contributions of the block at grid point u are those of diagrams 8 (u / 4) + r at points 512 (u mod 4) + j. -/
theorem blockSum (c : Dev nD) (u : Fin cfg0.N) (r : Fin 8) (k : Fin 512) (hb : 8 * (u.val / 4) + r.val < 64) :
    ∑ j : Fin 512, Cert.Spec.contribBlk (iblk m c 0 u) (iblk m c 1 u) (iblk m c 2 u) (iblk m c 3 u) (iblk m c 4 u) r j k
      = ∑ j : Fin 512, Cert.Spec.contrib (m ((c : Thread nD τ).loc main_arg0)) (m ((c : Thread nD τ).loc main_arg2)) (m ((c : Thread nD τ).loc main_arg3)) (m ((c : Thread nD τ).loc main_arg4)) (m ((c : Thread nD τ).loc main_arg5))
          ⟨8 * (u.val / 4) + r.val, hb⟩ ⟨512 * (u.val % 4) + j.val, by have := j.isLt; omega⟩ k := by
  refine Finset.sum_congr rfl fun j _ => ?_
  have hj : 512 * (u.val % 4) + j.val < 2048 := by have := j.isLt; omega
  unfold Cert.Spec.contribBlk Cert.Spec.contrib Cert.Spec.weight
  rw [Blk.blk0 m c u 0 r j hb hj, Blk.blk0 m c u 1 r j hb hj, Blk.blk0 m c u 2 r j hb hj, Blk.blk1 m c u, Blk.blk2 m c u,
    Blk.blk3 m c u, Blk.blk4 m c u k]

/-- Grid point n + i of a row that starts at n (a multiple of 4) works on diagram row n / 4 and on quarter i. -/
theorem row_of (n i : ℕ) (hn : n % 4 = 0) (hi : i < 4) : (n + i) / 4 = n / 4 ∧ (n + i) % 4 = i := by omega

/-- A contribution depends on the diagram and the point only through their numbers. -/
theorem contrib_congr (diag : (⟨3, ![64, 2048, 3]⟩ : Shape).Idx → EReal) (wg : (⟨2, ![4, 32]⟩ : Shape).Idx → EReal)
    (lm lv : (⟨2, ![2, 512]⟩ : Shape).Idx → EReal) (la : (⟨1, ![512]⟩ : Shape).Idx → EReal)
    {b b' : Fin 64} {p p' : Fin 2048} (k : Fin 512) (hb : b.val = b'.val) (hp : p.val = p'.val) :
    Cert.Spec.contrib diag wg lm lv la b p k = Cert.Spec.contrib diag wg lm lv la b' p' k := by
  obtain rfl := Fin.ext hb
  obtain rfl := Fin.ext hp
  rfl

/-- The output block written at the last point of a row, at entry (r, k): the specification's entry of diagram
    8 (row) + r — four steps from zero are the four quarter sums. -/
theorem out_apply (c : Dev nD) (n : ℕ) (h : n + 1 + 1 + 1 < cfg0.N) (hn : n % 4 = 0) (r : Fin 8) (k : Fin 512)
    (hb : 8 * (n / 4) + r.val < 64) :
    (outsAt0 m c (n + 1 + 1 + 1) h).1 (ix2 r k) = G m c (ix2 ⟨8 * (n / 4) + r.val, hb⟩ k) := by
  have hN : cfg0.N = 32 := N_0
  have h2 : n + 1 + 1 < cfg0.N := Nat.lt_of_succ_lt h
  have h1 : n + 1 < cfg0.N := Nat.lt_of_succ_lt h2
  have h0 : n < cfg0.N := Nat.lt_of_succ_lt h1
  rw [out_last m c (n + 1 + 1) h (by omega) (by omega), step_apply,
    sc_mid m c (n + 1) h2 (by omega) (by omega), step_apply,
    sc_mid m c n h1 (by omega) (by omega), step_apply,
    sc_first m c n h0 hn, step_apply, PayF.pay2_apply]
  rw [blockSum m c ⟨n, h0⟩ r k (by show 8 * (n / 4) + r.val < 64; exact hb),
    blockSum m c ⟨n + 1, h1⟩ r k (by show 8 * ((n + 1) / 4) + r.val < 64; omega),
    blockSum m c ⟨n + 1 + 1, h2⟩ r k (by show 8 * ((n + 1 + 1) / 4) + r.val < 64; omega),
    blockSum m c ⟨n + 1 + 1 + 1, h⟩ r k (by show 8 * ((n + 1 + 1 + 1) / 4) + r.val < 64; omega)]
  unfold G Cert.Spec.vec
  rw [Cert.Spec.sum_quarters]
  refine congrArg₂ (· + ·) (congrArg₂ (· + ·) (congrArg₂ (· + ·) (congrArg (0 + ·) ?_) ?_) ?_) ?_
  · refine Finset.sum_congr rfl fun j _ => contrib_congr _ _ _ _ _ k ?_ ?_
    · show 8 * (n / 4) + r.val = 8 * (n / 4) + r.val; rfl
    · show 512 * (n % 4) + j.val = 512 * 0 + j.val; omega
  · refine Finset.sum_congr rfl fun j _ => contrib_congr _ _ _ _ _ k ?_ ?_
    · show 8 * ((n + 1) / 4) + r.val = 8 * (n / 4) + r.val; omega
    · show 512 * ((n + 1) % 4) + j.val = 512 * 1 + j.val; omega
  · refine Finset.sum_congr rfl fun j _ => contrib_congr _ _ _ _ _ k ?_ ?_
    · show 8 * ((n + 1 + 1) / 4) + r.val = 8 * (n / 4) + r.val; omega
    · show 512 * ((n + 1 + 1) % 4) + j.val = 512 * 2 + j.val; omega
  · refine Finset.sum_congr rfl fun j _ => contrib_congr _ _ _ _ _ k ?_ ?_
    · show 8 * ((n + 1 + 1 + 1) / 4) + r.val = 8 * (n / 4) + r.val; omega
    · show 512 * ((n + 1 + 1 + 1) % 4) + j.val = 512 * 3 + j.val; omega

/-! ## From the blocks to the array -/

/-- Output window 5's block index at grid point t is (t / 4, 0), decided over the grid. -/
theorem idx5 : ∀ t : Fin cfg0.N, win0_5.index t 0 = t.val / 4 ∧ win0_5.index t 1 = 0 :=
  (by decide +kernel : ∀ t : Fin grid0.N, win0_5.index t 0 = t.val / 4 ∧ win0_5.index t 1 = 0)

/-- Its blocks are whole 8 × 512 blocks at every point. -/
theorem xs5 : ∀ t : Fin cfg0.N, win0_5.xsize (grid0.coords t) 0 = 8 ∧ win0_5.xsize (grid0.coords t) 1 = 512 :=
  (by decide +kernel : ∀ t : Fin grid0.N, win0_5.xsize (grid0.coords t) 0 = 8 ∧ win0_5.xsize (grid0.coords t) 1 = 512)

/-- What a last point of a row writes back is its block of the specification's vector. -/
theorem flushed_eq (c : Dev nD) (t : Fin cfg0.N) (hf : (cfg0.win 5).flush t = true) :
    (dats m 0 c).flushed 5 t = ((cfg0.win 5).blk t).view.read (Elt Ideal) (G m c) := by
  have hN : cfg0.N = 32 := N_0
  have h3 : t.val % 4 = 3 := (flush0_5 t).mp hf
  obtain ⟨tv, ht⟩ := t
  obtain ⟨n, rfl⟩ : ∃ n, tv = n + 1 + 1 + 1 := ⟨tv - 3, by dsimp only at h3; omega⟩
  have hn : n % 4 = 0 := by dsimp only at h3; omega
  funext y
  have hy0 : (y 0).val < 8 := lt_of_lt_of_eq (y 0).isLt (xs5 ⟨_, ht⟩).1
  have hy1 : (y 1).val < 512 := lt_of_lt_of_eq (y 1).isLt (xs5 ⟨_, ht⟩).2
  have hx : (cfg0.win 5).xinj (grid0.coords ⟨n + 1 + 1 + 1, ht⟩) y = ix2 ⟨(y 0).val, hy0⟩ ⟨(y 1).val, hy1⟩ :=
    funext (Fin.forall_fin_two.mpr ⟨rfl, rfl⟩)
  show (cfg0.win 5).cut (grid0.coords ⟨n + 1 + 1 + 1, ht⟩) ((dats m 0 c).after 5 ⟨n + 1 + 1 + 1, ht⟩) y = _
  rw [after0_5]
  show (outsAt0 m c (n + 1 + 1 + 1) ht).1 ((cfg0.win 5).xinj (grid0.coords ⟨n + 1 + 1 + 1, ht⟩) y) = _
  rw [hx, out_apply m c n ht hn ⟨_, hy0⟩ ⟨_, hy1⟩ (by show 8 * (n / 4) + (y 0).val < 64; omega), View.read_apply, cast_eq]
  refine congrArg (G m c) (funext fun a => Fin.ext ?_)
  match a with
  | ⟨0, _⟩ =>
    show 8 * (n / 4) + (y 0).val = win0_5.index ⟨n + 1 + 1 + 1, ht⟩ 0 * 8 + 1 * (y 0).val
    rw [(idx5 ⟨n + 1 + 1 + 1, ht⟩).1]
    show 8 * (n / 4) + (y 0).val = (n + 1 + 1 + 1) / 4 * 8 + 1 * (y 0).val
    omega
  | ⟨1, _⟩ =>
    show (y 1).val = win0_5.index ⟨n + 1 + 1 + 1, ht⟩ 1 * 512 + 1 * (y 1).val
    rw [(idx5 ⟨n + 1 + 1 + 1, ht⟩).2]
    omega

/-- Every entry (b, k) of the result vector lies in the block written at the last point of row b / 8. -/
theorem cover (c : Dev nD) (i : ((cfg0.win 5).arr.view.loc (c.tc : Thread nD τ)).2.ty.Idx) :
    ∃ t : Fin cfg0.N, (cfg0.win 5).flush t = true ∧ i ∈ ((cfg0.win 5).blk t).view.set := by
  have hN : cfg0.N = 32 := N_0
  have hi0 : (i 0 : Nat) < 64 := (i 0).isLt
  have hi1 : (i 1 : Nat) < 512 := (i 1).isLt
  have hT : 4 * ((i 0 : Nat) / 8) + 3 < cfg0.N := by omega
  refine ⟨⟨4 * ((i 0 : Nat) / 8) + 3, hT⟩, (flush0_5 _).mpr (by show (4 * ((i 0 : Nat) / 8) + 3) % 4 = 3; omega), ?_⟩
  show i ∈ ((View.whole main_v2).slice (win0_5.rect ⟨4 * ((i 0 : Nat) / 8) + 3, hT⟩)).set
  rw [View.set_slice_whole, Rect.mem_set_unit]
  intro a
  match a with
  | ⟨0, _⟩ =>
    show win0_5.index ⟨4 * ((i 0 : Nat) / 8) + 3, hT⟩ 0 * win0_5.size 0 ≤ (i 0 : Nat)
      ∧ (i 0 : Nat) < win0_5.index ⟨4 * ((i 0 : Nat) / 8) + 3, hT⟩ 0 * win0_5.size 0
          + win0_5.xsize (grid0.coords ⟨4 * ((i 0 : Nat) / 8) + 3, hT⟩) 0
    rw [(idx5 ⟨4 * ((i 0 : Nat) / 8) + 3, hT⟩).1, (xs5 ⟨4 * ((i 0 : Nat) / 8) + 3, hT⟩).1]
    show (4 * ((i 0 : Nat) / 8) + 3) / 4 * 8 ≤ (i 0 : Nat) ∧ (i 0 : Nat) < (4 * ((i 0 : Nat) / 8) + 3) / 4 * 8 + 8
    omega
  | ⟨1, _⟩ =>
    show win0_5.index ⟨4 * ((i 0 : Nat) / 8) + 3, hT⟩ 1 * win0_5.size 1 ≤ (i 1 : Nat)
      ∧ (i 1 : Nat) < win0_5.index ⟨4 * ((i 0 : Nat) / 8) + 3, hT⟩ 1 * win0_5.size 1
          + win0_5.xsize (grid0.coords ⟨4 * ((i 0 : Nat) / 8) + 3, hT⟩) 1
    rw [(idx5 ⟨4 * ((i 0 : Nat) / 8) + 3, hT⟩).2, (xs5 ⟨4 * ((i 0 : Nat) / 8) + 3, hT⟩).2]
    show 0 * 512 ≤ (i 1 : Nat) ∧ (i 1 : Nat) < 0 * 512 + 512
    omega

/-- So the region leaves the specification's vector in its result array. -/
theorem final (c : Dev nD) : (dats m 0 c).arrAt 5 cfg0.N = G m c :=
  (dats m 0 c).arrAt_eq_of_cover 5 (G m c) (flushed_eq m c) (cover c)

/-! ## The host line after the region, and the run -/

/-- The program's result on core c: the vector with the features appended along axis 1. -/
def result (c : Dev nD) : Buf (Elt Ideal) ((c : Thread nD τ).loc main_v3) :=
  concatenate S64x640 1 [⟨S64x512, G m c⟩, ⟨S64x128, m ((c : Thread nD τ).loc main_arg1)⟩]
    concatenates_S64x512_S64x128_S64x640_d1

theorem tail_eq (c : Dev nD) :
    Pipeline.afterTail₀ cfgs (dats m) 0 (V0 m) [hostOps1] c main_v3 = result m c := by
  unfold Pipeline.afterTail₀
  show StableHlo.after hostOps1 _ (Proc.devRef .tc main_v3) = _
  after_results
  have e2 : Pipeline.withArrays (cfgs 0).spec c (V0 m c) (fun w => (dats m 0 c).arrAt w (cfgs 0).N) (Proc.devRef .tc main_v2)
      = G m c :=
    (Pipeline.withArrays_arr spec0 launch0.win.arr_inj c _ _ 5).trans (final m c)
  have e1 : Pipeline.withArrays (cfgs 0).spec c (V0 m c) (fun w => (dats m 0 c).arrAt w (cfgs 0).N) (Proc.devRef .tc main_arg1)
      = m ((c : Thread nD τ).loc main_arg1) :=
    (Pipeline.withArrays_of_ne _ c (V0 m c) _ main_arg1 (by exact (by decide : ∀ w, Pipeline.arrRef spec0 w ≠ main_arg1))).trans
      (V_main_arg1 m c)
  rw [e2, e1]
  rfl

/-- The run, read: every weakly fair execution ends with the result array at the specification's vector with the
    features appended, and the six arguments as launched. -/
theorem run : θ_run defs (onTc (τ := τ) (main (F := Ideal))) ⟨m, fun _ => 0, ρ⟩ (fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v3 (Pipeline.mem_restRefs_of main_v3 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c))),
      ((h c).2 main_arg5 (Pipeline.mem_restRefs_of main_arg5 (by decide) (by decide))).trans (W_main_arg5 m (dats m) c)⟩)
    (run_main m ρ)

end Cert.KernelIdeal.KValue

end
-- ==== Proof.RefValue.lean ====
/-
  The reference's vector (its result before the features are appended) is the specification's function of the
  arguments, entry by entry, when every argument entry is a real number.
-/
import proofs.«180805_j7481833030230_2_alg».proof.Proof.Gen.ReferenceIdeal.Read
import proofs.«180805_j7481833030230_2_alg».proof.Proof.Spec
import Idealize.ShloMosaic.PureOps.Ideal.Laws
import Idealize.ShloMosaic.Lib.ValueIdx

noncomputable section

namespace Cert.RefValue

open Idealize.ShloMosaic Idealize.ShloMosaic.ValueIdx Cert.ReferenceIdeal

/-! ## The law of the reciprocal power -/

/-- On the reals the maximum of a number and its negative is its absolute value. -/
theorem R_max_neg (r : ℝ) : max (r : EReal) (-(r : EReal)) = ((|r| : ℝ) : EReal) := by
  rw [← EReal.coe_neg, abs_eq_max_neg]
  exact (EReal.coe_strictMono.monotone.map_max).symm

/-- For a real exponent a and a real base x ≥ 1 (so x > 0): 1 / x ^ a = exp ((0 - a) · log x), because
    x ^ a = exp (log x · a) for positive x, and the reciprocal of an exponential is the exponential of the negative. -/
theorem R_rpow_law (x a : ℝ) (hx : 1 ≤ x) :
    Ideal.div Cert.Spec.one (Ideal.pow (x : EReal) (a : EReal)) = Ideal.exp ((0 - (a : EReal)) * Ideal.log (x : EReal)) := by
  have hx0 : 0 < x := lt_of_lt_of_le one_pos hx
  have hp : Real.rpow x a ≠ 0 := (Real.rpow_pos_of_pos hx0 a).ne'
  rw [Cert.Spec.one_eq, Ideal.pow_coe_coe, Ideal.log_coe, if_neg (not_le.mpr hx0), Ideal.div_coe hp, one_mul,
    zero_sub, ← EReal.coe_neg, ← EReal.coe_mul, Ideal.exp_coe]
  refine congrArg _ ?_
  show 1 / x ^ a = Real.exp (-a * Real.log x)
  rw [Real.rpow_def_of_pos hx0, one_div, ← Real.exp_neg]
  congr 1; ring

/-- The base of the feature at real arguments is the real number 1 + |cx - mx| |vx| + |cy - my| |vy|. -/
theorem R_base_coe (cx cy mx my vx vy : ℝ) :
    Cert.Spec.base cx cy mx my vx vy = ((1 + |cx - mx| * |vx| + |cy - my| * |vy| : ℝ) : EReal) := by
  unfold Cert.Spec.base
  rw [Cert.Spec.one_eq, ← EReal.coe_sub, ← EReal.coe_sub, R_max_neg, R_max_neg, R_max_neg, R_max_neg]
  norm_cast

/-- The reciprocal power of the feature's base, at real arguments, is the specification's exponential form. -/
theorem R_feat_law (cx cy mx my vx vy a : ℝ) :
    Ideal.div Cert.Spec.one (Ideal.pow (Cert.Spec.base cx cy mx my vx vy) (a : EReal))
      = Cert.Spec.feat (Cert.Spec.base cx cy mx my vx vy) (a : EReal) := by
  rw [R_base_coe]
  unfold Cert.Spec.feat
  refine R_rpow_law _ _ ?_
  have h1 := mul_nonneg (abs_nonneg (cx - mx)) (abs_nonneg vx)
  have h2 := mul_nonneg (abs_nonneg (cy - my)) (abs_nonneg vy)
  linarith

/-! ## The stages of the reference read at coordinates -/

/-- The feature stage at point (b, n) and feature k, before the real-number law: one over the power of the base. -/
theorem R_feat_alg (x0 : (⟨S64x2048x3, .f32⟩ : BufTy).Contents (Elt Ideal)) (x3 x4 : (⟨S2x512, .f32⟩ : BufTy).Contents (Elt Ideal))
    (x5 : (⟨S512, .f32⟩ : BufTy).Contents (Elt Ideal)) (b : Fin 64) (n : Fin 2048) (k : Fin 512) :
    Read.val_main_v35 (F := Ideal) x0 x3 x4 x5 (ix3 b n k)
      = Ideal.div Cert.Spec.one (Ideal.pow (Cert.Spec.base (x0 (ix3 b n 0)) (x0 (ix3 b n 1)) (x3 (ix2 0 k)) (x3 (ix2 1 k))
          (x4 (ix2 0 k)) (x4 (ix2 1 k))) (x5 (ix1 k))) := by
  rw [Read.val_main_v35_apply, Read.val_main_v34_apply, Read.val_main_v33_apply, Read.val_main_v30_apply,
    Read.val_main_v29_apply, Read.val_main_v28_apply, Read.val_main_v32_apply, Read.val_main_v31_apply, Fin.sum_univ_two]
  simp only [Read.val_main_v27_apply, Read.val_main_v23_apply, Read.val_main_v22_apply, Read.val_main_v20_apply,
    Read.val_main_v3_apply, Read.val_main_v0_apply, Read.val_main_v21_apply, Read.val_main_v19_apply,
    Read.val_main_v26_apply, Read.val_main_v25_apply, Read.val_main_v24_apply]
  have e00 : Read.idx_main_v0 (Read.idx_main_v3 (Read.idx_main_v20 (Read.idx_main_v28 (ix3 b n k) 0))) = ix3 b n 0 :=
    funext fun a => Fin.ext (by match a with | ⟨0, _⟩ => rfl | ⟨1, _⟩ => rfl | ⟨2, _⟩ => rfl)
  have e01 : Read.idx_main_v0 (Read.idx_main_v3 (Read.idx_main_v20 (Read.idx_main_v28 (ix3 b n k) 1))) = ix3 b n 1 :=
    funext fun a => Fin.ext (by match a with | ⟨0, _⟩ => rfl | ⟨1, _⟩ => rfl | ⟨2, _⟩ => rfl)
  have e30 : Read.idx_main_v19 (Read.idx_main_v21 (Read.idx_main_v28 (ix3 b n k) 0)) = ix2 0 k :=
    funext fun a => Fin.ext (by match a with | ⟨0, _⟩ => rfl | ⟨1, _⟩ => rfl)
  have e31 : Read.idx_main_v19 (Read.idx_main_v21 (Read.idx_main_v28 (ix3 b n k) 1)) = ix2 1 k :=
    funext fun a => Fin.ext (by match a with | ⟨0, _⟩ => rfl | ⟨1, _⟩ => rfl)
  have e40 : Read.idx_main_v24 (Read.idx_main_v26 (Read.idx_main_v28 (ix3 b n k) 0)) = ix2 0 k :=
    funext fun a => Fin.ext (by match a with | ⟨0, _⟩ => rfl | ⟨1, _⟩ => rfl)
  have e41 : Read.idx_main_v24 (Read.idx_main_v26 (Read.idx_main_v28 (ix3 b n k) 1)) = ix2 1 k :=
    funext fun a => Fin.ext (by match a with | ⟨0, _⟩ => rfl | ⟨1, _⟩ => rfl)
  have e5 : Read.idx_main_v31 (Read.idx_main_v32 (ix3 b n k)) = ix1 k :=
    funext fun a => Fin.ext (by match a with | ⟨0, _⟩ => rfl)
  rw [e00, e01, e30, e31, e40, e41, e5]
  show Ideal.div Cert.Spec.one (Ideal.pow (Cert.Spec.one + (Ideal.ofBits .f32 0x00000000#32
      + (max (x0 (ix3 b n 0) - x3 (ix2 0 k)) (-(x0 (ix3 b n 0) - x3 (ix2 0 k))) * max (x4 (ix2 0 k)) (-(x4 (ix2 0 k)))
        + max (x0 (ix3 b n 1) - x3 (ix2 1 k)) (-(x0 (ix3 b n 1) - x3 (ix2 1 k))) * max (x4 (ix2 1 k)) (-(x4 (ix2 1 k))))))
      (x5 (ix1 k))) = _
  rw [Ideal.ofBits_zero_f32, zero_add, ← add_assoc]
  rfl

/-- The feature stage at point (b, n) and feature k is the specification's feature of the specification's base, when
    the entries it reads are real numbers. -/
theorem R_feat (x0 : (⟨S64x2048x3, .f32⟩ : BufTy).Contents (Elt Ideal)) (x3 x4 : (⟨S2x512, .f32⟩ : BufTy).Contents (Elt Ideal))
    (x5 : (⟨S512, .f32⟩ : BufTy).Contents (Elt Ideal)) (h0 : ∀ i, ∃ r : ℝ, x0 i = (r : EReal)) (h3 : ∀ i, ∃ r : ℝ, x3 i = (r : EReal))
    (h4 : ∀ i, ∃ r : ℝ, x4 i = (r : EReal)) (h5 : ∀ i, ∃ r : ℝ, x5 i = (r : EReal)) (b : Fin 64) (n : Fin 2048) (k : Fin 512) :
    Read.val_main_v35 (F := Ideal) x0 x3 x4 x5 (ix3 b n k)
      = Cert.Spec.feat (Cert.Spec.base (x0 (ix3 b n 0)) (x0 (ix3 b n 1)) (x3 (ix2 0 k)) (x3 (ix2 1 k))
          (x4 (ix2 0 k)) (x4 (ix2 1 k))) (x5 (ix1 k)) := by
  rw [R_feat_alg]
  obtain ⟨cx, hcx⟩ := h0 (ix3 b n 0)
  obtain ⟨cy, hcy⟩ := h0 (ix3 b n 1)
  obtain ⟨mx, hmx⟩ := h3 (ix2 0 k)
  obtain ⟨my, hmy⟩ := h3 (ix2 1 k)
  obtain ⟨vx, hvx⟩ := h4 (ix2 0 k)
  obtain ⟨vy, hvy⟩ := h4 (ix2 1 k)
  obtain ⟨a, ha⟩ := h5 (ix1 k)
  rw [hcx, hcy, hmx, hmy, hvx, hvy, ha]
  exact R_feat_law cx cy mx my vx vy a

/-- One Gaussian of the mixture at point (b, n): the reference negates 0 + the two-term sum of squared, scaled
    differences; the specification subtracts that sum from 0. -/
theorem R_gauss (x0 : (⟨S64x2048x3, .f32⟩ : BufTy).Contents (Elt Ideal)) (x2 : (⟨S4x32, .f32⟩ : BufTy).Contents (Elt Ideal))
    (b : Fin 64) (n : Fin 2048) (g : Fin 32) :
    Read.val_main_v17 (F := Ideal) x0 x2 (ix3 b n g)
      = Cert.Spec.gauss (x0 (ix3 b n 0)) (x0 (ix3 b n 1)) (x2 (ix2 0 g)) (x2 (ix2 1 g)) (x2 (ix2 2 g)) (x2 (ix2 3 g)) := by
  rw [Read.val_main_v17_apply, Read.val_main_v16_apply, Read.val_main_v15_apply, Fin.sum_univ_two]
  simp only [Read.val_main_v14_apply, Read.val_main_v11_apply, Read.val_main_v10_apply, Read.val_main_v8_apply,
    Read.val_main_v3_apply, Read.val_main_v0_apply, Read.val_main_v9_apply, Read.val_main_v5_apply, Read.val_main_v4_apply,
    Read.val_main_v13_apply, Read.val_main_v12_apply, Read.val_main_v7_apply, Read.val_main_v6_apply]
  have e00 : Read.idx_main_v0 (Read.idx_main_v3 (Read.idx_main_v8 (Read.idx_main_v15 (ix3 b n g) 0))) = ix3 b n 0 :=
    funext fun a => Fin.ext (by match a with | ⟨0, _⟩ => rfl | ⟨1, _⟩ => rfl | ⟨2, _⟩ => rfl)
  have e01 : Read.idx_main_v0 (Read.idx_main_v3 (Read.idx_main_v8 (Read.idx_main_v15 (ix3 b n g) 1))) = ix3 b n 1 :=
    funext fun a => Fin.ext (by match a with | ⟨0, _⟩ => rfl | ⟨1, _⟩ => rfl | ⟨2, _⟩ => rfl)
  have e20 : Read.idx_main_v4 (Read.idx_main_v5 (Read.idx_main_v9 (Read.idx_main_v15 (ix3 b n g) 0))) = ix2 0 g :=
    funext fun a => Fin.ext (by match a with | ⟨0, _⟩ => rfl | ⟨1, _⟩ => rfl)
  have e21 : Read.idx_main_v4 (Read.idx_main_v5 (Read.idx_main_v9 (Read.idx_main_v15 (ix3 b n g) 1))) = ix2 1 g :=
    funext fun a => Fin.ext (by match a with | ⟨0, _⟩ => rfl | ⟨1, _⟩ => rfl)
  have e22 : Read.idx_main_v6 (Read.idx_main_v7 (Read.idx_main_v13 (Read.idx_main_v15 (ix3 b n g) 0))) = ix2 2 g :=
    funext fun a => Fin.ext (by match a with | ⟨0, _⟩ => rfl | ⟨1, _⟩ => rfl)
  have e23 : Read.idx_main_v6 (Read.idx_main_v7 (Read.idx_main_v13 (Read.idx_main_v15 (ix3 b n g) 1))) = ix2 3 g :=
    funext fun a => Fin.ext (by match a with | ⟨0, _⟩ => rfl | ⟨1, _⟩ => rfl)
  rw [e00, e01, e20, e21, e22, e23]
  show Ideal.exp (-(Ideal.ofBits .f32 0x00000000#32
      + ((x0 (ix3 b n 0) - x2 (ix2 0 g)) * (x0 (ix3 b n 0) - x2 (ix2 0 g)) * (x2 (ix2 2 g) * x2 (ix2 2 g))
        + (x0 (ix3 b n 1) - x2 (ix2 1 g)) * (x0 (ix3 b n 1) - x2 (ix2 1 g)) * (x2 (ix2 3 g) * x2 (ix2 3 g))))) = _
  unfold Cert.Spec.gauss
  rw [Ideal.ofBits_zero_f32, zero_add, zero_sub]

/-- The weight stage at point (b, n) is the specification's Gaussian-mixture weight: 0 + the sum over the 32 Gaussians. -/
theorem R_weight (x0 : (⟨S64x2048x3, .f32⟩ : BufTy).Contents (Elt Ideal)) (x2 : (⟨S4x32, .f32⟩ : BufTy).Contents (Elt Ideal))
    (b : Fin 64) (n : Fin 2048) :
    Read.val_main_v18 (F := Ideal) x0 x2 (ix2 b n) = Cert.Spec.weight x0 x2 b n := by
  rw [Read.val_main_v18_apply]
  unfold Cert.Spec.weight
  show Ideal.ofBits .f32 0x00000000#32 + _ = _
  rw [Ideal.ofBits_zero_f32, zero_add]
  refine Finset.sum_congr rfl fun g _ => ?_
  have e : Read.idx_main_v18 (ix2 b n) g = ix3 b n g :=
    funext fun a => Fin.ext (by match a with | ⟨0, _⟩ => rfl | ⟨1, _⟩ => rfl | ⟨2, _⟩ => rfl)
  rw [e]
  exact R_gauss x0 x2 b n g

/-- The mask stage at point (b, n) is the third plane of the diagram there: the row-major position b · 2048 + n of the
    reshaped slice splits back into (b, n). -/
theorem R_mask (x0 : (⟨S64x2048x3, .f32⟩ : BufTy).Contents (Elt Ideal)) (b : Fin 64) (n : Fin 2048) :
    Read.val_main_v2 (F := Ideal) x0 (ix2 b n) = x0 (ix3 b n 2) := by
  rw [Read.val_main_v2_apply, Read.val_main_v1_apply]
  have hn : n.val < 2048 := n.isLt
  refine congrArg x0 (funext fun a => Fin.ext ?_)
  match a with
  | ⟨0, _⟩ => show (b.val * 2048 + n.val) / 2048 = b.val; omega
  | ⟨1, _⟩ => show (b.val * 2048 + n.val) / 1 % 2048 = n.val; omega
  | ⟨2, _⟩ => rfl

/-- The product stage at point (b, n) and feature k is the specification's contribution. -/
theorem R_contrib (x0 : (⟨S64x2048x3, .f32⟩ : BufTy).Contents (Elt Ideal)) (x2 : (⟨S4x32, .f32⟩ : BufTy).Contents (Elt Ideal))
    (x3 x4 : (⟨S2x512, .f32⟩ : BufTy).Contents (Elt Ideal)) (x5 : (⟨S512, .f32⟩ : BufTy).Contents (Elt Ideal))
    (h0 : ∀ i, ∃ r : ℝ, x0 i = (r : EReal)) (h3 : ∀ i, ∃ r : ℝ, x3 i = (r : EReal))
    (h4 : ∀ i, ∃ r : ℝ, x4 i = (r : EReal)) (h5 : ∀ i, ∃ r : ℝ, x5 i = (r : EReal)) (b : Fin 64) (n : Fin 2048) (k : Fin 512) :
    Read.val_main_v39 (F := Ideal) x0 x2 x3 x4 x5 (ix3 b n k) = Cert.Spec.contrib x0 x2 x3 x4 x5 b n k := by
  rw [Read.val_main_v39_apply, Read.val_main_v38_apply, Read.val_main_v37_apply, Read.val_main_v36_apply]
  have e : Read.idx_main_v37 (Read.idx_main_v38 (ix3 b n k)) = ix2 b n :=
    funext fun a => Fin.ext (by match a with | ⟨0, _⟩ => rfl | ⟨1, _⟩ => rfl)
  rw [e, R_feat x0 x3 x4 x5 h0 h3 h4 h5, R_weight, R_mask]
  rfl

theorem ref_vec (x0 : (⟨S64x2048x3, .f32⟩ : BufTy).Contents (Elt Ideal)) (x2 : (⟨S4x32, .f32⟩ : BufTy).Contents (Elt Ideal))
    (x3 x4 : (⟨S2x512, .f32⟩ : BufTy).Contents (Elt Ideal)) (x5 : (⟨S512, .f32⟩ : BufTy).Contents (Elt Ideal))
    (h0 : ∀ i, ∃ r : ℝ, x0 i = (r : EReal)) (h2 : ∀ i, ∃ r : ℝ, x2 i = (r : EReal)) (h3 : ∀ i, ∃ r : ℝ, x3 i = (r : EReal))
    (h4 : ∀ i, ∃ r : ℝ, x4 i = (r : EReal)) (h5 : ∀ i, ∃ r : ℝ, x5 i = (r : EReal)) :
    Cert.ReferenceIdeal.Read.val_main_v40 (F := Ideal) x0 x2 x3 x4 x5 = Cert.Spec.vec x0 x2 x3 x4 x5 := by
  funext j
  obtain ⟨b, k, rfl⟩ : ∃ b k, j = ix2 b k := ⟨j 0, j 1, eq_ix2 j⟩
  rw [Read.val_main_v40_apply]
  show Ideal.ofBits .f32 0x00000000#32 + _ = ∑ n : Fin 2048, Cert.Spec.contrib x0 x2 x3 x4 x5 b n k
  rw [Ideal.ofBits_zero_f32, zero_add]
  refine Finset.sum_congr rfl fun n _ => ?_
  have e : Read.idx_main_v40 (ix2 b k) n = ix3 b n k :=
    funext fun a => Fin.ext (by match a with | ⟨0, _⟩ => rfl | ⟨1, _⟩ => rfl | ⟨2, _⟩ => rfl)
  rw [e]
  exact R_contrib x0 x2 x3 x4 x5 h0 h3 h4 h5 b n k

end Cert.RefValue

end
-- ==== Proof.Finite.lean ====
/-
  The precondition, read: when the finiteness predicate of the six arguments is all ones, every entry of each float
  argument is a real number.
-/
import proofs.«180805_j7481833030230_2_alg».proof.Pre_finite_inputs
import proofs.«180805_j7481833030230_2_alg».proof.Proof.Gen.Pre_finite_inputs
import Idealize.ShloMosaic.Lib.ReduceAll
import Idealize.ShloMosaic.PureOps.Ideal.Laws

noncomputable section

namespace Cert.Finite

open Idealize.ShloMosaic Cert.Pre_finite_inputs

/-- The rank-0 shape has exactly one index. -/
instance F_subsingleton_scalarIdx : Subsingleton S_.Idx := ⟨fun a b => funext fun d => d.elim0⟩

/-- The pattern `0x7F800000` denotes `+∞`. -/
theorem F_ofBits_inf : Ideal.ofBits .f32 0x7F800000#32 = (⊤ : EReal) := by simp [Ideal.ofBits, Ideal.ieee]

/-- One entry: `|a| < +∞` with `|a| = max a (-a)` excludes both infinities, so `a` is a real number. At `⊥` the
    absolute value is `max ⊥ ⊤ = ⊤`, at `⊤` it is `max ⊤ ⊥ = ⊤`, and `⊤ < ⊤` is false. -/
theorem F_real_of_abs_lt_inf (a : EReal)
    (h : Ideal.cmp .olt (max a (-a)) (Ideal.ofBits .f32 0x7F800000#32) = 1#1) : ∃ r : ℝ, a = (r : EReal) := by
  rw [F_ofBits_inf] at h
  induction a using EReal.rec with
  | bot => simp [Ideal.cmp] at h
  | coe r => exact ⟨r, rfl⟩
  | top => simp [Ideal.cmp] at h

/-- `jnp.all(|x| < +∞)` of a vector of any shape, all ones: every entry of the vector is a real number. The reduction by
    `and` over all axes that came out 1 met a 1 at every index, and that 1 is the comparison of one entry's absolute value
    with the broadcast `+∞`. -/
theorem F_all_real {s : Shape} {axes : List (Fin s.rank)} (x : FVec Ideal s .f32)
    (hb : S_.BroadcastsInDim s (![] : Fin 0 → Fin s.rank)) (hr : s.ReducesTo axes S_) (hu : 0 < S_.numel)
    (init : IVec S_ 1) (j : S_.Idx)
    (e : Host.reduce IntOp.andi
          (cmpf .olt (Host.absf x) (broadcastInDim s ![] hb (constant (F := Ideal) S_ .f32 0x7F800000#32))) init hr hu j
        = 1#1)
    (i : s.Idx) : ∃ r : ℝ, x i = (r : EReal) :=
  F_real_of_abs_lt_inf (x i) (Host.reduce_andi_all _ init hr hu j e i)

theorem finite_of_pre (x0 : FVec Ideal S64x2048x3 .f32) (x1 : FVec Ideal S64x128 .f32) (x2 : FVec Ideal S4x32 .f32)
    (x3 x4 : FVec Ideal S2x512 .f32) (x5 : FVec Ideal S512 .f32)
    (h : fn (F := Ideal) x0 x1 x2 x3 x4 x5 = fun _ => 1#1) :
    (∀ i, ∃ r : ℝ, x0 i = (r : EReal)) ∧ (∀ i, ∃ r : ℝ, x2 i = (r : EReal)) ∧ (∀ i, ∃ r : ℝ, x3 i = (r : EReal))
      ∧ (∀ i, ∃ r : ℝ, x4 i = (r : EReal)) ∧ (∀ i, ∃ r : ℝ, x5 i = (r : EReal)) := by
  -- the predicate is a rank-0 vector: read it at its one index
  have h0 := congrFun h (fun a => a.elim0)
  dsimp only [fn, fn_part1] at h0
  -- the predicate is the conjunction, nested to the left, of the six `jnp.all`s
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨F_all_real x0 _ _ _ _ _ e0, F_all_real x2 _ _ _ _ _ e2, F_all_real x3 _ _ _ _ _ e3,
    F_all_real x4 _ _ _ _ _ e4, F_all_real x5 _ _ _ _ _ e5⟩

end Cert.Finite

end
-- ==== Proof.lean ====
/-
  The kernel and its reference compute one function on the extended reals.

  For every diagram b and feature k both programs form the sum over the 2048 points n of
  (1 + |cx - LM(0,k)| |LV(0,k)| + |cy - LM(1,k)| |LV(1,k)|) ^ (-LA k) times the point's Gaussian-mixture weight times its
  mask, and append the features (Proof/Spec.lean). The reference takes the sum in one piece and writes the power as
  1 / power(base, LA k); the kernel takes it a quarter of the points at a time into a scratch block, reset at the first
  quarter and written out after the last, and writes the power as exp((0 - LA k) · log base). The two spellings of the
  power agree because the inputs are finite, so the base is a real number at least 1 (Proof/RefValue.lean, with
  Proof/Finite.lean reading the precondition); the quarters regroup because addition of extended reals is associative
  (Proof/Spec.lean, sum_quarters). The kernel's side is read off its frame run in Proof/Pieces.lean (what one run of the
  body leaves), Proof/PayWeight.lean, Proof/PayFeat.lean, Proof/Payload.lean (the body's arithmetic at an entry),
  Proof/Blocks.lean (what the input blocks hold) and Proof/KernelValue.lean (the row of four steps, the blocks tiling the
  result, the appended features). Both programs end with the same concatenation, which is never opened.
  The word-level program and its idealization differ by no rewrite, so that claim is trivial.
-/
import proofs.«180805_j7481833030230_2_alg».proof.Defs
import proofs.«180805_j7481833030230_2_alg».proof.Proof.Gen.Kernel
import proofs.«180805_j7481833030230_2_alg».proof.Proof.Gen.Kernel.Skeleton
import proofs.«180805_j7481833030230_2_alg».proof.Proof.Gen.Kernel.Launch
import proofs.«180805_j7481833030230_2_alg».proof.Proof.Gen.Kernel.Points
import proofs.«180805_j7481833030230_2_alg».proof.Proof.Gen.Kernel.Frame
import proofs.«180805_j7481833030230_2_alg».proof.Proof.Gen.KernelIdeal
import proofs.«180805_j7481833030230_2_alg».proof.Proof.Gen.KernelIdeal.Skeleton
import proofs.«180805_j7481833030230_2_alg».proof.Proof.Gen.KernelIdeal.Launch
import proofs.«180805_j7481833030230_2_alg».proof.Proof.Gen.KernelIdeal.Points
import proofs.«180805_j7481833030230_2_alg».proof.Proof.Gen.KernelIdeal.Frame
import proofs.«180805_j7481833030230_2_alg».proof.Proof.Gen.ReferenceIdeal
import proofs.«180805_j7481833030230_2_alg».proof.Proof.Gen.Pre_finite_inputs
import proofs.«180805_j7481833030230_2_alg».proof.Proof.Gen.ReferenceIdeal.Run
import proofs.«180805_j7481833030230_2_alg».proof.Proof.Gen.ReferenceIdeal.Read
import proofs.«180805_j7481833030230_2_alg».proof.Proof.KernelValue
import proofs.«180805_j7481833030230_2_alg».proof.Proof.RefValue
import proofs.«180805_j7481833030230_2_alg».proof.Proof.Finite
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing of the kernel was rewritten to idealize it. -/
theorem preserves : Cert.preserves_Kernel_KernelIdeal := trivial

/-- On the extended reals, from memories that agree on finite arguments, the kernel's result array and the
    reference's both end at the specification's vector of the arguments with the features appended. -/
theorem algebraic : Cert.algebraic_KernelIdeal_ReferenceIdeal := by
  intro m ρ m' ρ' hpre hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v41_eq (F := Ideal) _ _ _ _ _ _).trans ?_
  obtain ⟨f0, f2, f3, f4, f5⟩ := Cert.Finite.finite_of_pre _ _ _ _ _ _ (hpre c)
  unfold Cert.ReferenceIdeal.Read.val_main_v41
  rw [(hagree c).1, (hagree c).2.1, (hagree c).2.2.1, (hagree c).2.2.2.1, (hagree c).2.2.2.2.1, (hagree c).2.2.2.2.2,
    Cert.RefValue.ref_vec _ _ _ _ _ f0 f2 f3 f4 f5]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
